-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S512x1 : Shape := ⟨2, ![512, 1]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 26
  | .vmem => 14
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S8192x1, .f32⟩
  | .hbm, ⟨4, _⟩ => ⟨S1x8192, .f32⟩
  | .hbm, ⟨5, _⟩ => ⟨S1x8192, .f32⟩
  | .hbm, ⟨6, _⟩ => ⟨S128x128, .f32⟩
  | .hbm, ⟨7, _⟩ => ⟨S128x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S8x128_S8x128_0_0 : ∀ a, (![0, 0] : Fin 2 → Nat) a + S8x128.size a ≤ S8x128.size a
  h_S8x128 : 0 < S8x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  reducesTo_S128x128_S_d0_1 : S128x128.ReducesTo [0, 1] S_
  h_S_ : 0 < S_.numel
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S128x128.size a
  hwx0_5 : ∀ i : grid0.Coords, EltTy.bits .f32 = 32 ∨ (Rect.block (s := S128x128) S8x128.size (cc0_transform_5 i) (hinb0_5 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .i1⟩
  | .hbm, ⟨13, _⟩ => ⟨S1x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S_, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_

variable [Facts₀]

class Facts : Prop extends Facts₀ where

variable [Facts]
-- ==== Proof.KShared.lean ====
/-
  What the three runs of the pairwise body share. The grid is 16 row tiles by 8 column steps; a point `t` is step
  `t % 8` of row tile `t / 8`. The body branches twice on the step alone: at the FIRST step of a row tile it zeroes its
  two accumulators and both output blocks; at the LAST step it sums each accumulator to one number and stores it into
  entry (0, 0) of its output block. So a point is in one of three cases — first step, a middle step, last step — and
  an output block is idle (the body stores nothing into it) exactly at the middle steps. Here: the two conditions in
  closed form over the grid, where each window is idle, the names of the memrefs the body is called with, and the
  region's invariant with the two accumulators as owned memrefs.
-/
import proofs.«138254_j609885356367_2_alg».proof.Proof.Gen.Kernel.Frame
import proofs.«138254_j609885356367_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- The point is the first step of its row tile (the body's first `scf.if`). -/
abbrev firstStep (i : grid0.Coords) : Prop := k0_cond1 i = 1#1
/-- It holds exactly at the points ≡ 0 (mod 8). -/
theorem firstStep_iff : ∀ t : Fin cfg0.N, firstStep (grid0.coords t) ↔ t.val % 8 = 0 :=
  (by decide +kernel : ∀ t : Fin grid0.N, firstStep (grid0.coords t) ↔ t.val % 8 = 0)

/-- The point is the last step of its row tile (the body's second `scf.if`). -/
abbrev lastStep (i : grid0.Coords) : Prop := k0_cond2 i = 1#1
/-- It holds exactly at the points ≡ 7 (mod 8). -/
theorem lastStep_iff : ∀ t : Fin cfg0.N, lastStep (grid0.coords t) ↔ t.val % 8 = 7 :=
  (by decide +kernel : ∀ t : Fin grid0.N, lastStep (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The two output blocks are idle exactly at the middle steps. -/
theorem idle4_iff : ∀ t : Fin cfg0.N, cfg0.idle 4 (grid0.coords t) = true ↔ (¬t.val % 8 = 0 ∧ ¬t.val % 8 = 7) :=
  (by decide +kernel : ∀ t : Fin grid0.N, cfg0.idle 4 (grid0.coords t) = true ↔ (¬t.val % 8 = 0 ∧ ¬t.val % 8 = 7))
theorem idle5_iff : ∀ t : Fin cfg0.N, cfg0.idle 5 (grid0.coords t) = true ↔ (¬t.val % 8 = 0 ∧ ¬t.val % 8 = 7) :=
  (by decide +kernel : ∀ t : Fin grid0.N, cfg0.idle 5 (grid0.coords t) = true ↔ (¬t.val % 8 = 0 ∧ ¬t.val % 8 = 7))

/-! ## The memrefs the body is called with -/

/-- Each window's current staging memref at point `t`, as the pipeline passes it, and its wholeness. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
/-- The two accumulators: whole scoped buffers of the kernel's own, passed beside the windows. -/
abbrev accM0 : Memref sig .tc .vmem S512x1024 .f32 := Memref.whole cc0_scratch0
abbrev accM1 : Memref sig .tc .vmem S512x1024 .f32 := Memref.whole cc0_scratch1
theorem haccM0 : (accM0).IsWhole := Memref.isWhole_whole _
theorem haccM1 : (accM1).IsWhole := Memref.isWhole_whole _

/-- The region's invariant with the two accumulators as memrefs owned at some contents: what the body is handed at
    the first point and gives back after the last. -/
theorem PhiA_eq (c : Dev nD) :
    (Pipeline.ΦA spec0 c : sProp 𝕄)
      = iprop(iprop((∃ d, owns (c : Thread nD τ) accM0 fullShare d) ∗ (∃ d, owns (c : Thread nD τ) accM1 fullShare d)) ∗ (∃ r, prngReg c r)) := by
  unfold Pipeline.ΦA; rw [scopedRest0_eq]; simp only [accM0, accM1, owns_whole]; try rfl

/-- The zero offsets, however they are spelt. -/
theorem hz : (![0, 0] : Fin 2 → Nat) = fun _ => 0 := funext fun a => by fin_cases a <;> rfl

end Cert.Kernel.Body

end
-- ==== Proof.KRunA.lean ====
/-
  THE FIRST STEP of a row tile. The body zeroes both accumulators and both output blocks, then adds this step's hinge
  and count terms into the (zeroed) accumulators. The run is stated on whole memrefs: the four input blocks at known
  contents, the output blocks and the accumulators at anything (every one of them is overwritten whole). It ends with
  the inputs as they were and every other buffer with its pieces written; the pieces are what the symbolic execution
  of the body finds, and each list covers its buffer.
-/
import proofs.«138254_j609885356367_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i)
    (x0 : Vec F S512x1 .f32) (x1 : Vec F S512x1 .f32) (x2 : Vec F S1x1024 .f32) (x3 : Vec F S1x1024 .f32) :
    Σ' (LO4 : List (View.Piece (Elt F) S8x128 .f32)) (LO5 : List (View.Piece (Elt F) S8x128 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO4)
                ∗ (∃ f, arg7.view.loc (c : Thread nD τ) ↦[arg7.view.set]{fullShare} arg7.view.writes (Elt F) f LO5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Body

end
-- ==== Proof.KRunB.lean ====
/-
  A MIDDLE STEP of a row tile. The body only adds this step's hinge and count terms into the two accumulators; it
  does not touch the output blocks. The run is stated on whole memrefs at known contents: the four input blocks and
  the two accumulators (`xs0`, `xs1`: what the step before left). It ends with the inputs as they were and each
  accumulator with its one covering piece written; the pieces are what the symbolic execution of the body finds.
-/
import proofs.«138254_j609885356367_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i)
    (x0 : Vec F S512x1 .f32) (x1 : Vec F S512x1 .f32) (x2 : Vec F S1x1024 .f32) (x3 : Vec F S1x1024 .f32) (xs0 : Vec F S512x1024 .f32) (xs1 : Vec F S512x1024 .f32) :
    Σ' (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Body

end
-- ==== Proof.KRunC.lean ====
/-
  THE LAST STEP of a row tile. The body adds this step's hinge and count terms into the two accumulators, then sums
  each accumulator to one number and stores it into entry (0, 0) of its output block, leaving the rest of the block as
  it was (the zeros the first step stored). The run is stated on whole memrefs at known contents: the four input blocks,
  the two output blocks (`x4`, `x5`: what the steps before left) and the two accumulators (`xs0`, `xs1`). It ends with
  the inputs as they were, each output block's buffer with ONE piece written over `x4` / `x5`, and each accumulator
  with its pieces written; the pieces are what the symbolic execution of the body finds.
-/
import proofs.«138254_j609885356367_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i)
    (x0 : Vec F S512x1 .f32) (x1 : Vec F S512x1 .f32) (x2 : Vec F S1x1024 .f32) (x3 : Vec F S1x1024 .f32) (x4 : Vec F S8x128 .f32) (x5 : Vec F S8x128 .f32) (xs0 : Vec F S512x1024 .f32) (xs1 : Vec F S512x1024 .f32) :
    Σ' (LO4 : List (View.Piece (Elt F) S8x128 .f32)) (LO5 : List (View.Piece (Elt F) S8x128 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread x4) LO4)
                ∗ (arg7.view.loc (c : Thread nD τ) ↦[arg7.view.set]{fullShare} arg7.view.writes (Elt F) (harg7.unread x5) LO5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [HS0]; · iexists _; iexact HS0
    iexists _; iexact HS1

end Cert.Kernel.Body

end
-- ==== Proof.KData.lean ====
/-
  WHAT THE BODY LEAVES, POINT BY POINT, and the proof data of the pipeline.
  After the body at point `n` four buffers matter: the two output blocks' staging buffers and the two accumulators.
  At a first step all four are overwritten whole (the output blocks with zeros, the accumulators with this step's terms
  over zeros). At a middle step the accumulators are overwritten whole with their old contents plus this step's
  terms, and the output blocks are not touched: they still hold what the step before left. At a last step the
  accumulators are updated in the same way and ONE entry of each output block is overwritten, the rest kept. So the
  four contents are defined by recursion on the point (`outsAt`), each case reading the pieces its run found — a
  covering list of pieces through its canonical contents, the single piece of a last step through a read of the
  buffer written over what it held.
  The region's invariant carries the two accumulators from point to point at those contents (`PhiS`); an output
  block's buffer is handed to the body, at any step but a first, holding what the step before left (`before4`,
  `before5`: the buffer is written back only after a last step, and through a run of middle steps it is untouched).
-/
import proofs.«138254_j609885356367_2_alg».proof.Proof.KRunA
import proofs.«138254_j609885356367_2_alg».proof.Proof.KRunB
import proofs.«138254_j609885356367_2_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover -/

theorem coverFirst4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S8x128.Idx) :
    ∃ pc ∈ (runFirst (F := F) c i arg2 harg2 arg3 harg3 arg4 harg4 arg5 harg5 arg6 harg6 arg7 harg7 arg8 harg8 arg9 harg9 hc0 hc1 x0 x1 x2 x3).1, y ∈ pc.1.set :=
  View.cover_of_tiledL (runFirst (F := F) c i arg2 harg2 arg3 harg3 arg4 harg4 arg5 harg5 arg6 harg6 arg7 harg7 arg8 harg8 arg9 harg9 hc0 hc1 x0 x1 x2 x3).1 S8x128.size (by sl_kernel_rfl) y
theorem coverFirst5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S8x128.Idx) :
    ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.1 S8x128.size (by sl_kernel_rfl) y
theorem coverFirstS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S512x1024.Idx) :
    ∃ pc ∈ (runFirst (F := F) c i arg2 harg2 arg3 harg3 arg4 harg4 arg5 harg5 arg6 harg6 arg7 harg7 arg8 harg8 arg9 harg9 hc0 hc1 x0 x1 x2 x3).2.2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.2.1 S512x1024.size (by sl_kernel_rfl) y
theorem coverFirstS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S512x1024.Idx) :
    ∃ pc ∈ (runFirst (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.2.2.1 S512x1024.size (by sl_kernel_rfl) y
theorem coverMiddleS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) (y : S512x1024.Idx) :
    ∃ pc ∈ (runMiddle (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runMiddle (F := F) c i arg2 harg2 arg3 harg3 arg4 harg4 arg5 harg5 arg6 harg6 arg7 harg7 arg8 harg8 arg9 harg9 hc0 hc1 x0 x1 x2 x3 xs0 xs1).1 S512x1024.size (by sl_kernel_rfl) y
theorem coverMiddleS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) (y : S512x1024.Idx) :
    ∃ pc ∈ (runMiddle (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runMiddle (F := F) c i arg2 harg2 arg3 harg3 arg4 harg4 arg5 harg5 arg6 harg6 arg7 harg7 arg8 harg8 arg9 harg9 hc0 hc1 x0 x1 x2 x3 xs0 xs1).2.1 S512x1024.size (by sl_kernel_rfl) y
theorem coverLastS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S512x1024.Idx) :
    ∃ pc ∈ (runLast (F := F) c i arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 x4 x5 xs0 xs1).2.2.1 S512x1024.size (by sl_kernel_rfl) y
theorem coverLastS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S512x1024.Idx) :
    ∃ pc ∈ (runLast (F := F) c i arg2 harg2 arg3 harg3 arg4 harg4 arg5 harg5 arg6 harg6 arg7 harg7 arg8 harg8 arg9 harg9 hc0 hc1 x0 x1 x2 x3 x4 x5 xs0 xs1).2.2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 x4 x5 xs0 xs1).2.2.2.1 S512x1024.size (by sl_kernel_rfl) y

/-! ## The three runs at a point of the grid -/

/-- The four contents after a point: the first output block, the second, the hinge accumulator, the count accumulator. -/
abbrev Vals (F : FTy → Type) [FloatOps F] : Type := Vec F S8x128 .f32 × Vec F S8x128 .f32 × Vec F S512x1024 .f32 × Vec F S512x1024 .f32

theorem not_last_of_first {n : ℕ} (hn : n < cfg0.N) (h0 : n % 8 = 0) : ¬lastStep (grid0.coords ⟨n, hn⟩) :=
  fun h => (fun h => by (try dsimp only at h); omega) ((lastStep_iff ⟨n, hn⟩).mp h)
theorem not_first_of_last {n : ℕ} (hn : n < cfg0.N) (h1 : n % 8 = 7) : ¬firstStep (grid0.coords ⟨n, hn⟩) :=
  fun h => (fun h => by (try dsimp only at h); omega) ((firstStep_iff ⟨n, hn⟩).mp h)

/-- The first-step run at point `n`, on the point's memrefs and input blocks. -/
def firstAt (c : Dev nD) (n : ℕ) (hn : n < cfg0.N) (h0 : n % 8 = 0) :=
  runFirst (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    ((firstStep_iff ⟨n, hn⟩).mpr h0) (not_last_of_first hn h0) (iblk m c 0 ⟨n, hn⟩) (iblk m c 1 ⟨n, hn⟩) (iblk m c 2 ⟨n, hn⟩) (iblk m c 3 ⟨n, hn⟩)
/-- The middle-step run at point `n`, the accumulators at `xs0`, `xs1`. -/
def middleAt (c : Dev nD) (n : ℕ) (hn : n < cfg0.N) (h0 : ¬n % 8 = 0) (h1 : ¬n % 8 = 7) (xs0 xs1 : Vec F S512x1024 .f32) :=
  runMiddle (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    (fun h => h0 ((firstStep_iff ⟨n, hn⟩).mp h)) (fun h => h1 ((lastStep_iff ⟨n, hn⟩).mp h)) (iblk m c 0 ⟨n, hn⟩) (iblk m c 1 ⟨n, hn⟩) (iblk m c 2 ⟨n, hn⟩) (iblk m c 3 ⟨n, hn⟩) xs0 xs1
/-- The last-step run at point `n`, the output blocks at `x4`, `x5` and the accumulators at `xs0`, `xs1`. -/
def lastAt (c : Dev nD) (n : ℕ) (hn : n < cfg0.N) (h1 : n % 8 = 7) (x4 x5 : Vec F S8x128 .f32) (xs0 xs1 : Vec F S512x1024 .f32) :=
  runLast (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    (not_first_of_last hn h1) ((lastStep_iff ⟨n, hn⟩).mpr h1) (iblk m c 0 ⟨n, hn⟩) (iblk m c 1 ⟨n, hn⟩) (iblk m c 2 ⟨n, hn⟩) (iblk m c 3 ⟨n, hn⟩) x4 x5 xs0 xs1

/-- What a first step leaves: every buffer's covering pieces, read as their canonical contents. -/
def firstVals (c : Dev nD) (n : ℕ) (hn : n < cfg0.N) (h0 : n % 8 = 0) : Vals F :=
  (View.canon (firstAt m c n hn h0).1, View.canon (firstAt m c n hn h0).2.1,
    View.canon (firstAt m c n hn h0).2.2.1, View.canon (firstAt m c n hn h0).2.2.2.1)
/-- What a middle step leaves over `prev`: the output blocks as they were, the accumulators' covering pieces. -/
def middleVals (c : Dev nD) (n : ℕ) (hn : n < cfg0.N) (h0 : ¬n % 8 = 0) (h1 : ¬n % 8 = 7) (prev : Vals F) : Vals F :=
  (prev.1, prev.2.1, View.canon (middleAt m c n hn h0 h1 prev.2.2.1 prev.2.2.2).1, View.canon (middleAt m c n hn h0 h1 prev.2.2.1 prev.2.2.2).2.1)
/-- What a last step leaves over `prev`: each output block's buffer written with its one piece over what it held,
    the accumulators' covering pieces. -/
def lastVals (c : Dev nD) (n : ℕ) (hn : n < cfg0.N) (h1 : n % 8 = 7) (prev : Vals F) : Vals F :=
  ((ms4 ⟨n, hn⟩).view.read (Elt F) ((ms4 ⟨n, hn⟩).view.writes (Elt F) ((hs4 ⟨n, hn⟩).unread prev.1) (lastAt m c n hn h1 prev.1 prev.2.1 prev.2.2.1 prev.2.2.2).1),
    (ms5 ⟨n, hn⟩).view.read (Elt F) ((ms5 ⟨n, hn⟩).view.writes (Elt F) ((hs5 ⟨n, hn⟩).unread prev.2.1) (lastAt m c n hn h1 prev.1 prev.2.1 prev.2.2.1 prev.2.2.2).2.1),
    View.canon (lastAt m c n hn h1 prev.1 prev.2.1 prev.2.2.1 prev.2.2.2).2.2.1, View.canon (lastAt m c n hn h1 prev.1 prev.2.1 prev.2.2.1 prev.2.2.2).2.2.2.1)

/-! ## The recursion on the point -/

/-- THE FOUR CONTENTS after the body at position `n`: the case the step selects, a middle or last step over what
    position `n - 1` left. -/
def outsAt (c : Dev nD) : (n : ℕ) → n < cfg0.N → Vals F
  | 0, hn => firstVals m c 0 hn (Nat.zero_mod _)
  | n + 1, hn =>
    if h0 : (n + 1) % 8 = 0 then firstVals m c (n + 1) hn h0
    else if h1 : (n + 1) % 8 = 7 then lastVals m c (n + 1) hn h1 (outsAt c n (Nat.lt_of_succ_lt hn))
    else middleVals m c (n + 1) hn h0 h1 (outsAt c n (Nat.lt_of_succ_lt hn))

theorem outsAt_first (c : Dev nD) (n : ℕ) (hn : n < cfg0.N) (h0 : n % 8 = 0) :
    outsAt m c n hn = firstVals m c n hn h0 := by
  cases n with
  | zero => rfl
  | succ n => exact (dif_pos h0).trans rfl

theorem outsAt_middle (c : Dev nD) (n : ℕ) (hn : n < cfg0.N) (h0 : ¬n % 8 = 0) (h1 : ¬n % 8 = 7) :
    outsAt m c n hn = middleVals m c n hn h0 h1 (outsAt m c (n - 1) (Nat.lt_of_le_of_lt (Nat.sub_le _ _) hn)) := by
  cases n with
  | zero => exact absurd (Nat.zero_mod _) h0
  | succ n => exact (dif_neg h0).trans ((dif_neg h1).trans rfl)

theorem outsAt_last (c : Dev nD) (n : ℕ) (hn : n < cfg0.N) (h1 : n % 8 = 7) :
    outsAt m c n hn = lastVals m c n hn h1 (outsAt m c (n - 1) (Nat.lt_of_le_of_lt (Nat.sub_le _ _) hn)) := by
  cases n with
  | zero => exact absurd h1 (by decide)
  | succ n =>
    have h0 : ¬(n + 1) % 8 = 0 := by omega
    exact (dif_neg h0).trans ((dif_pos h1).trans rfl)

/-- A middle step hands both output blocks on. -/
theorem middleVals_fst (c : Dev nD) (n : ℕ) (hn : n < cfg0.N) (h0 : ¬n % 8 = 0) (h1 : ¬n % 8 = 7) (prev : Vals F) :
    (middleVals m c n hn h0 h1 prev).1 = prev.1 := by
  unfold middleVals; dsimp only
theorem middleVals_snd (c : Dev nD) (n : ℕ) (hn : n < cfg0.N) (h0 : ¬n % 8 = 0) (h1 : ¬n % 8 = 7) (prev : Vals F) :
    (middleVals m c n hn h0 h1 prev).2.1 = prev.2.1 := by
  unfold middleVals; dsimp only

/-! ## The invariant: the accumulators carried between points -/

/-- Before the first point the region's own invariant (each accumulator at anything); before a later point the
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) accM0 fullShare ((outsAt m c n hn).2.2.1) ∗ owns (c : Thread nD τ) accM1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM0 fullShare ((outsAt m c n hn).2.2.1) ∗ owns (c : Thread nD τ) accM1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) accM0 fullShare ((outsAt m c (n - 1) (by omega)).2.2.1) ∗ owns (c : Thread nD τ) accM1 fullShare ((outsAt m c (n - 1) (by omega)).2.2.2)) ∗ (∃ r, prngReg c r)) := by
  cases n with
  | zero => exact absurd rfl hz
  | succ n => rfl

/-! ## The pipeline's proof data -/

/-- The arrays as the region finds them; after the body each input's buffer at its block, each output block's buffer
    at `outsAt`'s component (consulted at the first and last steps only: at a middle step the block is idle); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- An output block's buffer, left by a step that stored into it, is found whole by the next (the blocks tile the array). -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t), Window.fill_cut]
theorem kept5 (c : Dev nD) (t : Fin cfg0.N) (d) : (dats m 0 c).kept 5 t d = (dats m 0 c).after 5 t := by
  unfold Dat.kept
  rw [Pipeline.fill_of_clip_none (cfg := cfg0) 5 _ (fun _ => rfl) d ((dats m 0 c).after 5 t), Window.fill_cut]

/-- At any step but a first, the first output block's buffer holds what the step before left: it is written back only
    after a last step, a first step's zeros are found by the step after it, and a middle step hands on what it found. -/
theorem before4 (c : Dev nD) : ∀ (n : ℕ) (hn : n < cfg0.N) (h0 : ¬n % 8 = 0) (d),
    (dats m 0 c).before 4 ⟨n, hn⟩ d = (outsAt m c (n - 1) (Nat.lt_of_le_of_lt (Nat.sub_le _ _) hn)).1 := by
  intro n
  induction n using Nat.strong_induction_on with
  | _ n ih =>
    intro hn h0 d
    have hN : n < 128 := lt_of_lt_of_eq hn (show cfg0.N = 128 from N_0)
    have hpos : n ≠ 0 := fun h => h0 (by rw [h])
    have hfl : (cfg0.win 4).flush ⟨n - 1, Nat.lt_of_le_of_lt (Nat.sub_le _ _) hn⟩ = false :=
      Bool.eq_false_iff.mpr fun h => by have := (flush0_4 _).mp h; dsimp only at this; omega
    rw [(dats m 0 c).before_of_pos 4 ⟨n, hn⟩ hpos ((cfg0.win 4).fetch_out rfl _) d]
    dsimp only
    rw [hfl, if_neg Bool.false_ne_true]
    unfold Dat.left
    by_cases hp : (n - 1) % 8 = 0
    · have hi : cfg0.idle 4 (grid0.coords ⟨n - 1, Nat.lt_of_le_of_lt (Nat.sub_le _ _) hn⟩) = false :=
        Bool.eq_false_iff.mpr fun h => ((idle4_iff _).mp h).1 hp
      rw [hi]; dsimp only
      rw [kept4, after4]
    · have hq : ¬(n - 1) % 8 = 7 := by omega
      have hi : cfg0.idle 4 (grid0.coords ⟨n - 1, Nat.lt_of_le_of_lt (Nat.sub_le _ _) hn⟩) = true :=
        (idle4_iff _).mpr ⟨hp, hq⟩
      rw [hi]; dsimp only
      rw [ih (n - 1) (by omega) _ hp d, outsAt_middle m c (n - 1) _ hp hq]
      exact (middleVals_fst m c (n - 1) _ hp hq _).symm

theorem before5 (c : Dev nD) : ∀ (n : ℕ) (hn : n < cfg0.N) (h0 : ¬n % 8 = 0) (d),
    (dats m 0 c).before 5 ⟨n, hn⟩ d = (outsAt m c (n - 1) (Nat.lt_of_le_of_lt (Nat.sub_le _ _) hn)).2.1 := by
  intro n
  induction n using Nat.strong_induction_on with
  | _ n ih =>
    intro hn h0 d
    have hN : n < 128 := lt_of_lt_of_eq hn (show cfg0.N = 128 from N_0)
    have hpos : n ≠ 0 := fun h => h0 (by rw [h])
    have hfl : (cfg0.win 5).flush ⟨n - 1, Nat.lt_of_le_of_lt (Nat.sub_le _ _) hn⟩ = false :=
      Bool.eq_false_iff.mpr fun h => by have := (flush0_5 _).mp h; dsimp only at this; omega
    rw [(dats m 0 c).before_of_pos 5 ⟨n, hn⟩ hpos ((cfg0.win 5).fetch_out rfl _) d]
    dsimp only
    rw [hfl, if_neg Bool.false_ne_true]
    unfold Dat.left
    by_cases hp : (n - 1) % 8 = 0
    · have hi : cfg0.idle 5 (grid0.coords ⟨n - 1, Nat.lt_of_le_of_lt (Nat.sub_le _ _) hn⟩) = false :=
        Bool.eq_false_iff.mpr fun h => ((idle5_iff _).mp h).1 hp
      rw [hi]; dsimp only
      rw [kept5, after5]
    · have hq : ¬(n - 1) % 8 = 7 := by omega
      have hi : cfg0.idle 5 (grid0.coords ⟨n - 1, Nat.lt_of_le_of_lt (Nat.sub_le _ _) hn⟩) = true :=
        (idle5_iff _).mpr ⟨hp, hq⟩
      rw [hi]; dsimp only
      rw [ih (n - 1) (by omega) _ hp d, outsAt_middle m c (n - 1) _ hp hq]
      exact (middleVals_snd m c (n - 1) _ hp hq _).symm

end Cert.Kernel.Body

end
-- ==== Proof.KBody.lean ====
/-
  THE BODY OBLIGATION, THE RUN AND THE FRAME. At every point the body is handed the invariant, each input block's buffer
  at its block and each output block's buffer at what it then holds, and must hand back the invariant for the next
  point and every buffer at what the proof data says it leaves. By cases on the step: at a first step the run of the
  first case applies with the output blocks and the accumulators at anything; at a middle step the run of the middle
  case applies with the accumulators at what the step before left, and the two output blocks — idle there — pass
  through untouched; at a last step the run of the last case applies with the output blocks and the accumulators at
  what the step before left. The accumulators' covering pieces read as their canonical contents; a last step's single
  piece over the block's known contents is the proof data's own term. The run of @main is then the library's frame run
  for a region followed by host operations, with the invariant tracking the accumulators, and the frame claim its
  projection to the two argument arrays.
-/
import proofs.«138254_j609885356367_2_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  unfold bodyPre bodyPost bodyAt0
  simp only [before0, before1, before2, before3]
  rw [show (dats m 0 c).owesAt () (Fin.succ ⟨n, hn⟩) = (dats m 0 c).owesAt () (Fin.castSucc ⟨n, hn⟩) from rfl]
  rw [show (dats m 0 c).Φ (Fin.succ ⟨n, hn⟩) = PhiS m c (n + 1) hn from rfl, PhiS_succ]
  have hN : n < 128 := lt_of_lt_of_eq hn (show cfg0.N = 128 from N_0)
  rw [show (dats m 0 c).leavesExact 0 ⟨n, hn⟩ = owns (c : Thread nD τ) (ms0 ⟨n, hn⟩) fullShare ((dats m 0 c).after 0 ⟨n, hn⟩) from by
    unfold Dat.leavesExact; rw [live0 ⟨n, hn⟩], after0]
  rw [show (dats m 0 c).leavesExact 1 ⟨n, hn⟩ = owns (c : Thread nD τ) (ms1 ⟨n, hn⟩) fullShare ((dats m 0 c).after 1 ⟨n, hn⟩) from by
    unfold Dat.leavesExact; rw [live1 ⟨n, hn⟩], after1]
  rw [show (dats m 0 c).leavesExact 2 ⟨n, hn⟩ = owns (c : Thread nD τ) (ms2 ⟨n, hn⟩) fullShare ((dats m 0 c).after 2 ⟨n, hn⟩) from by
    unfold Dat.leavesExact; rw [live2 ⟨n, hn⟩], after2]
  rw [show (dats m 0 c).leavesExact 3 ⟨n, hn⟩ = owns (c : Thread nD τ) (ms3 ⟨n, hn⟩) fullShare ((dats m 0 c).after 3 ⟨n, hn⟩) from by
    unfold Dat.leavesExact; rw [live3 ⟨n, hn⟩], after3]
  by_cases h0 : n % 8 = 0
  · have hi4 : cfg0.idle 4 (grid0.coords ⟨n, hn⟩) = false := Bool.eq_false_iff.mpr fun h => ((idle4_iff ⟨n, hn⟩).mp h).1 h0
    have hi5 : cfg0.idle 5 (grid0.coords ⟨n, hn⟩) = false := Bool.eq_false_iff.mpr fun h => ((idle5_iff ⟨n, hn⟩).mp h).1 h0
    rw [show (dats m 0 c).leavesExact 4 ⟨n, hn⟩ = owns (c : Thread nD τ) (ms4 ⟨n, hn⟩) fullShare ((dats m 0 c).after 4 ⟨n, hn⟩) from by
      unfold Dat.leavesExact; rw [hi4], after4]
    rw [show (dats m 0 c).leavesExact 5 ⟨n, hn⟩ = owns (c : Thread nD τ) (ms5 ⟨n, hn⟩) fullShare ((dats m 0 c).after 5 ⟨n, hn⟩) from by
      unfold Dat.leavesExact; rw [hi5], after5]
    (try dsimp only)
    rw [outsAt_first m c n hn h0]
    unfold firstVals firstAt; (try dsimp only)
    by_cases hz : n = 0
    · rw [PhiS_castSucc m c ⟨n, hn⟩, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords ⟨n, hn⟩) _ _ _ _ _ _ _ _ _ _ _ _ _ _ _ _ ((firstStep_iff ⟨n, hn⟩).mpr h0) (not_last_of_first hn h0) (iblk m c 0 ⟨n, hn⟩) (iblk m c 1 ⟨n, hn⟩) (iblk m c 2 ⟨n, hn⟩) (iblk m c 3 ⟨n, hn⟩)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverFirstS0 c _ _ _ _ _ _ _ _ _ _ _ _ _ _ _ _ _ _ _ _ _ _ _)
          unfold owns; iexists _; isplitr
          swap; · iexact HS1
          ipureintro; exact View.read_writes_eq_canon _ _ _ (coverFirstS1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverFirst4 c _ _ _ _ _ _ _ _ _ _ _ _ _ _ _ _ _ _ _ _ _ _ _)
      unfold owns; iexists _; isplitr
      swap; · iexact H5
      ipureintro; exact View.read_writes_eq_canon _ _ _ (coverFirst5 c _ _ _ _ _ _ _ _ _ _ _ _ _ _ _ _ _ _ _ _ _ _ _)
    · rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords ⟨n, hn⟩) _ _ _ _ _ _ _ _ _ _ _ _ _ _ _ _ ((firstStep_iff ⟨n, hn⟩).mpr h0) (not_last_of_first hn h0) (iblk m c 0 ⟨n, hn⟩) (iblk m c 1 ⟨n, hn⟩) (iblk m c 2 ⟨n, hn⟩) (iblk m c 3 ⟨n, hn⟩)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverFirstS0 c _ _ _ _ _ _ _ _ _ _ _ _ _ _ _ _ _ _ _ _ _ _ _)
          unfold owns; iexists _; isplitr
          swap; · iexact HS1
          ipureintro; exact View.read_writes_eq_canon _ _ _ (coverFirstS1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverFirst4 c _ _ _ _ _ _ _ _ _ _ _ _ _ _ _ _ _ _ _ _ _ _ _)
      unfold owns; iexists _; isplitr
      swap; · iexact H5
      ipureintro; exact View.read_writes_eq_canon _ _ _ (coverFirst5 c _ _ _ _ _ _ _ _ _ _ _ _ _ _ _ _ _ _ _ _ _ _ _)
  · have hz : n ≠ 0 := fun h => h0 (by rw [h])
    by_cases h1 : n % 8 = 7
    · have hi4 : cfg0.idle 4 (grid0.coords ⟨n, hn⟩) = false := Bool.eq_false_iff.mpr fun h => ((idle4_iff ⟨n, hn⟩).mp h).2 h1
      have hi5 : cfg0.idle 5 (grid0.coords ⟨n, hn⟩) = false := Bool.eq_false_iff.mpr fun h => ((idle5_iff ⟨n, hn⟩).mp h).2 h1
      rw [show (dats m 0 c).leavesExact 4 ⟨n, hn⟩ = owns (c : Thread nD τ) (ms4 ⟨n, hn⟩) fullShare ((dats m 0 c).after 4 ⟨n, hn⟩) from by
        unfold Dat.leavesExact; rw [hi4], after4]
      rw [show (dats m 0 c).leavesExact 5 ⟨n, hn⟩ = owns (c : Thread nD τ) (ms5 ⟨n, hn⟩) fullShare ((dats m 0 c).after 5 ⟨n, hn⟩) from by
        unfold Dat.leavesExact; rw [hi5], after5]
      simp only [before4 m c n hn h0, before5 m c n hn h0]
      (try dsimp only)
      rw [outsAt_last m c n hn h1]
      unfold lastVals lastAt; (try dsimp only)
      rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords ⟨n, hn⟩) _ _ _ _ _ _ _ _ _ _ _ _ _ _ _ _ (not_first_of_last hn h1) ((lastStep_iff ⟨n, hn⟩).mpr h1) (iblk m c 0 ⟨n, hn⟩) (iblk m c 1 ⟨n, hn⟩) (iblk m c 2 ⟨n, hn⟩) (iblk m c 3 ⟨n, hn⟩) _ _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverLastS0 c _ _ _ _ _ _ _ _ _ _ _ _ _ _ _ _ _ _ _ _ _ _ _ _ _ _ _)
          unfold owns; iexists _; isplitr
          swap; · iexact HS1
          ipureintro; exact View.read_writes_eq_canon _ _ _ (coverLastS1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; rfl
      unfold owns; iexists _; isplitr
      swap; · iexact H5
      ipureintro; rfl
    · have hi4 : cfg0.idle 4 (grid0.coords ⟨n, hn⟩) = true := (idle4_iff ⟨n, hn⟩).mpr ⟨h0, h1⟩
      have hi5 : cfg0.idle 5 (grid0.coords ⟨n, hn⟩) = true := (idle5_iff ⟨n, hn⟩).mpr ⟨h0, h1⟩
      have hf4 : (cfg0.win 4).flush ⟨n, hn⟩ = false := Bool.eq_false_iff.mpr fun h => h1 ((flush0_4 ⟨n, hn⟩).mp h)
      have hf5 : (cfg0.win 5).flush ⟨n, hn⟩ = false := Bool.eq_false_iff.mpr fun h => h1 ((flush0_5 ⟨n, hn⟩).mp h)
      rw [(dats m 0 c).leavesExact_idle 4 ⟨n, hn⟩ hi4 hf4, (dats m 0 c).leavesExact_idle 5 ⟨n, hn⟩ hi5 hf5]
      (try dsimp only)
      rw [outsAt_middle m c n hn h0 h1]
      unfold middleVals middleAt; (try dsimp only)
      rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMiddle c (grid0.coords ⟨n, hn⟩) _ _ _ _ _ _ _ _ _ _ _ _ _ _ _ _ (fun h => h0 ((firstStep_iff ⟨n, hn⟩).mp h)) (fun h => h1 ((lastStep_iff ⟨n, hn⟩).mp h)) (iblk m c 0 ⟨n, hn⟩) (iblk m c 1 ⟨n, hn⟩) (iblk m c 2 ⟨n, hn⟩) (iblk m c 3 ⟨n, hn⟩) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverMiddleS0 c _ _ _ _ _ _ _ _ _ _ _ _ _ _ _ _ _ _ _ _ _ _ _ _ _)
          unfold owns; iexists _; isplitr
          swap; · iexact HS1
          ipureintro; exact View.read_writes_eq_canon _ _ _ (coverMiddleS1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what
    the library computes from the proof data and every other unscoped buffer at what the host operations after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIShared.lean ====
/-
  What the three runs of the pairwise body share. The grid is 16 row tiles by 8 column steps; a point `t` is step
  `t % 8` of row tile `t / 8`. The body branches twice on the step alone: at the FIRST step of a row tile it zeroes its
  two accumulators and both output blocks; at the LAST step it sums each accumulator to one number and stores it into
  entry (0, 0) of its output block. So a point is in one of three cases — first step, a middle step, last step — and
  an output block is idle (the body stores nothing into it) exactly at the middle steps. Here: the two conditions in
  closed form over the grid, where each window is idle, the names of the memrefs the body is called with, and the
  region's invariant with the two accumulators as owned memrefs.
-/
import proofs.«138254_j609885356367_2_alg».proof.Proof.Gen.KernelIdeal.Frame
import proofs.«138254_j609885356367_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- The point is the first step of its row tile (the body's first `scf.if`). -/
abbrev firstStep (i : grid0.Coords) : Prop := k0_cond1 i = 1#1
/-- It holds exactly at the points ≡ 0 (mod 8). -/
theorem firstStep_iff : ∀ t : Fin cfg0.N, firstStep (grid0.coords t) ↔ t.val % 8 = 0 :=
  (by decide +kernel : ∀ t : Fin grid0.N, firstStep (grid0.coords t) ↔ t.val % 8 = 0)

/-- The point is the last step of its row tile (the body's second `scf.if`). -/
abbrev lastStep (i : grid0.Coords) : Prop := k0_cond2 i = 1#1
/-- It holds exactly at the points ≡ 7 (mod 8). -/
theorem lastStep_iff : ∀ t : Fin cfg0.N, lastStep (grid0.coords t) ↔ t.val % 8 = 7 :=
  (by decide +kernel : ∀ t : Fin grid0.N, lastStep (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The two output blocks are idle exactly at the middle steps. -/
theorem idle4_iff : ∀ t : Fin cfg0.N, cfg0.idle 4 (grid0.coords t) = true ↔ (¬t.val % 8 = 0 ∧ ¬t.val % 8 = 7) :=
  (by decide +kernel : ∀ t : Fin grid0.N, cfg0.idle 4 (grid0.coords t) = true ↔ (¬t.val % 8 = 0 ∧ ¬t.val % 8 = 7))
theorem idle5_iff : ∀ t : Fin cfg0.N, cfg0.idle 5 (grid0.coords t) = true ↔ (¬t.val % 8 = 0 ∧ ¬t.val % 8 = 7) :=
  (by decide +kernel : ∀ t : Fin grid0.N, cfg0.idle 5 (grid0.coords t) = true ↔ (¬t.val % 8 = 0 ∧ ¬t.val % 8 = 7))

/-! ## The memrefs the body is called with -/

/-- Each window's current staging memref at point `t`, as the pipeline passes it, and its wholeness. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
/-- The two accumulators: whole scoped buffers of the kernel's own, passed beside the windows. -/
abbrev accM0 : Memref sig .tc .vmem S512x1024 .f32 := Memref.whole cc0_scratch0
abbrev accM1 : Memref sig .tc .vmem S512x1024 .f32 := Memref.whole cc0_scratch1
theorem haccM0 : (accM0).IsWhole := Memref.isWhole_whole _
theorem haccM1 : (accM1).IsWhole := Memref.isWhole_whole _

/-- The region's invariant with the two accumulators as memrefs owned at some contents: what the body is handed at
    the first point and gives back after the last. -/
theorem PhiA_eq (c : Dev nD) :
    (Pipeline.ΦA spec0 c : sProp 𝕄)
      = iprop(iprop((∃ d, owns (c : Thread nD τ) accM0 fullShare d) ∗ (∃ d, owns (c : Thread nD τ) accM1 fullShare d)) ∗ (∃ r, prngReg c r)) := by
  unfold Pipeline.ΦA; rw [scopedRest0_eq]; simp only [accM0, accM1, owns_whole]; try rfl

/-- The zero offsets, however they are spelt. -/
theorem hz : (![0, 0] : Fin 2 → Nat) = fun _ => 0 := funext fun a => by fin_cases a <;> rfl

end Cert.KernelIdeal.Body

end
-- ==== Proof.KIRunA.lean ====
/-
  THE FIRST STEP of a row tile. The body zeroes both accumulators and both output blocks, then adds this step's hinge
  and count terms into the (zeroed) accumulators. The run is stated on whole memrefs: the four input blocks at known
  contents, the output blocks and the accumulators at anything (every one of them is overwritten whole). It ends with
  the inputs as they were and every other buffer with its pieces written; the pieces are what the symbolic execution
  of the body finds, and each list covers its buffer.
-/
import proofs.«138254_j609885356367_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i)
    (x0 : Vec F S512x1 .f32) (x1 : Vec F S512x1 .f32) (x2 : Vec F S1x1024 .f32) (x3 : Vec F S1x1024 .f32) :
    Σ' (LO4 : List (View.Piece (Elt F) S8x128 .f32)) (LO5 : List (View.Piece (Elt F) S8x128 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO4)
                ∗ (∃ f, arg7.view.loc (c : Thread nD τ) ↦[arg7.view.set]{fullShare} arg7.view.writes (Elt F) f LO5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Body

end
-- ==== Proof.KIRunB.lean ====
/-
  A MIDDLE STEP of a row tile. The body only adds this step's hinge and count terms into the two accumulators; it
  does not touch the output blocks. The run is stated on whole memrefs at known contents: the four input blocks and
  the two accumulators (`xs0`, `xs1`: what the step before left). It ends with the inputs as they were and each
  accumulator with its one covering piece written; the pieces are what the symbolic execution of the body finds.
-/
import proofs.«138254_j609885356367_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i)
    (x0 : Vec F S512x1 .f32) (x1 : Vec F S512x1 .f32) (x2 : Vec F S1x1024 .f32) (x3 : Vec F S1x1024 .f32) (xs0 : Vec F S512x1024 .f32) (xs1 : Vec F S512x1024 .f32) :
    Σ' (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Body

end
-- ==== Proof.KIRunC.lean ====
/-
  THE LAST STEP of a row tile. The body adds this step's hinge and count terms into the two accumulators, then sums
  each accumulator to one number and stores it into entry (0, 0) of its output block, leaving the rest of the block as
  it was (the zeros the first step stored). The run is stated on whole memrefs at known contents: the four input blocks,
  the two output blocks (`x4`, `x5`: what the steps before left) and the two accumulators (`xs0`, `xs1`). It ends with
  the inputs as they were, each output block's buffer with ONE piece written over `x4` / `x5`, and each accumulator
  with its pieces written; the pieces are what the symbolic execution of the body finds.
-/
import proofs.«138254_j609885356367_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i)
    (x0 : Vec F S512x1 .f32) (x1 : Vec F S512x1 .f32) (x2 : Vec F S1x1024 .f32) (x3 : Vec F S1x1024 .f32) (x4 : Vec F S8x128 .f32) (x5 : Vec F S8x128 .f32) (xs0 : Vec F S512x1024 .f32) (xs1 : Vec F S512x1024 .f32) :
    Σ' (LO4 : List (View.Piece (Elt F) S8x128 .f32)) (LO5 : List (View.Piece (Elt F) S8x128 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread x4) LO4)
                ∗ (arg7.view.loc (c : Thread nD τ) ↦[arg7.view.set]{fullShare} arg7.view.writes (Elt F) (harg7.unread x5) LO5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [HS0]; · iexists _; iexact HS0
    iexists _; iexact HS1

end Cert.KernelIdeal.Body

end
-- ==== Proof.KIData.lean ====
/-
  WHAT THE BODY LEAVES, POINT BY POINT, and the proof data of the pipeline.
  After the body at point `n` four buffers matter: the two output blocks' staging buffers and the two accumulators.
  At a first step all four are overwritten whole (the output blocks with zeros, the accumulators with this step's terms
  over zeros). At a middle step the accumulators are overwritten whole with their old contents plus this step's
  terms, and the output blocks are not touched: they still hold what the step before left. At a last step the
  accumulators are updated in the same way and ONE entry of each output block is overwritten, the rest kept. So the
  four contents are defined by recursion on the point (`outsAt`), each case reading the pieces its run found — a
  covering list of pieces through its canonical contents, the single piece of a last step through a read of the
  buffer written over what it held.
  The region's invariant carries the two accumulators from point to point at those contents (`PhiS`); an output
  block's buffer is handed to the body, at any step but a first, holding what the step before left (`before4`,
  `before5`: the buffer is written back only after a last step, and through a run of middle steps it is untouched).
-/
import proofs.«138254_j609885356367_2_alg».proof.Proof.KIRunA
import proofs.«138254_j609885356367_2_alg».proof.Proof.KIRunB
import proofs.«138254_j609885356367_2_alg».proof.Proof.KIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover -/

theorem coverFirst4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S8x128.Idx) :
    ∃ pc ∈ (runFirst (F := F) c i arg2 harg2 arg3 harg3 arg4 harg4 arg5 harg5 arg6 harg6 arg7 harg7 arg8 harg8 arg9 harg9 hc0 hc1 x0 x1 x2 x3).1, y ∈ pc.1.set :=
  View.cover_of_tiledL (runFirst (F := F) c i arg2 harg2 arg3 harg3 arg4 harg4 arg5 harg5 arg6 harg6 arg7 harg7 arg8 harg8 arg9 harg9 hc0 hc1 x0 x1 x2 x3).1 S8x128.size (by sl_kernel_rfl) y
theorem coverFirst5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S8x128.Idx) :
    ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.1 S8x128.size (by sl_kernel_rfl) y
theorem coverFirstS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S512x1024.Idx) :
    ∃ pc ∈ (runFirst (F := F) c i arg2 harg2 arg3 harg3 arg4 harg4 arg5 harg5 arg6 harg6 arg7 harg7 arg8 harg8 arg9 harg9 hc0 hc1 x0 x1 x2 x3).2.2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.2.1 S512x1024.size (by sl_kernel_rfl) y
theorem coverFirstS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) (y : S512x1024.Idx) :
    ∃ pc ∈ (runFirst (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.2.2.1 S512x1024.size (by sl_kernel_rfl) y
theorem coverMiddleS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) (y : S512x1024.Idx) :
    ∃ pc ∈ (runMiddle (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runMiddle (F := F) c i arg2 harg2 arg3 harg3 arg4 harg4 arg5 harg5 arg6 harg6 arg7 harg7 arg8 harg8 arg9 harg9 hc0 hc1 x0 x1 x2 x3 xs0 xs1).1 S512x1024.size (by sl_kernel_rfl) y
theorem coverMiddleS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) (y : S512x1024.Idx) :
    ∃ pc ∈ (runMiddle (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runMiddle (F := F) c i arg2 harg2 arg3 harg3 arg4 harg4 arg5 harg5 arg6 harg6 arg7 harg7 arg8 harg8 arg9 harg9 hc0 hc1 x0 x1 x2 x3 xs0 xs1).2.1 S512x1024.size (by sl_kernel_rfl) y
theorem coverLastS0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S512x1024.Idx) :
    ∃ pc ∈ (runLast (F := F) c i arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 x4 x5 xs0 xs1).2.2.1 S512x1024.size (by sl_kernel_rfl) y
theorem coverLastS1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S512x1024.Idx) :
    ∃ pc ∈ (runLast (F := F) c i arg2 harg2 arg3 harg3 arg4 harg4 arg5 harg5 arg6 harg6 arg7 harg7 arg8 harg8 arg9 harg9 hc0 hc1 x0 x1 x2 x3 x4 x5 xs0 xs1).2.2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 x4 x5 xs0 xs1).2.2.2.1 S512x1024.size (by sl_kernel_rfl) y

/-! ## The three runs at a point of the grid -/

/-- The four contents after a point: the first output block, the second, the hinge accumulator, the count accumulator. -/
abbrev Vals (F : FTy → Type) [FloatOps F] : Type := Vec F S8x128 .f32 × Vec F S8x128 .f32 × Vec F S512x1024 .f32 × Vec F S512x1024 .f32

theorem not_last_of_first {n : ℕ} (hn : n < cfg0.N) (h0 : n % 8 = 0) : ¬lastStep (grid0.coords ⟨n, hn⟩) :=
  fun h => (fun h => by (try dsimp only at h); omega) ((lastStep_iff ⟨n, hn⟩).mp h)
theorem not_first_of_last {n : ℕ} (hn : n < cfg0.N) (h1 : n % 8 = 7) : ¬firstStep (grid0.coords ⟨n, hn⟩) :=
  fun h => (fun h => by (try dsimp only at h); omega) ((firstStep_iff ⟨n, hn⟩).mp h)

/-- The first-step run at point `n`, on the point's memrefs and input blocks. -/
def firstAt (c : Dev nD) (n : ℕ) (hn : n < cfg0.N) (h0 : n % 8 = 0) :=
  runFirst (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    ((firstStep_iff ⟨n, hn⟩).mpr h0) (not_last_of_first hn h0) (iblk m c 0 ⟨n, hn⟩) (iblk m c 1 ⟨n, hn⟩) (iblk m c 2 ⟨n, hn⟩) (iblk m c 3 ⟨n, hn⟩)
/-- The middle-step run at point `n`, the accumulators at `xs0`, `xs1`. -/
def middleAt (c : Dev nD) (n : ℕ) (hn : n < cfg0.N) (h0 : ¬n % 8 = 0) (h1 : ¬n % 8 = 7) (xs0 xs1 : Vec F S512x1024 .f32) :=
  runMiddle (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    (fun h => h0 ((firstStep_iff ⟨n, hn⟩).mp h)) (fun h => h1 ((lastStep_iff ⟨n, hn⟩).mp h)) (iblk m c 0 ⟨n, hn⟩) (iblk m c 1 ⟨n, hn⟩) (iblk m c 2 ⟨n, hn⟩) (iblk m c 3 ⟨n, hn⟩) xs0 xs1
/-- The last-step run at point `n`, the output blocks at `x4`, `x5` and the accumulators at `xs0`, `xs1`. -/
def lastAt (c : Dev nD) (n : ℕ) (hn : n < cfg0.N) (h1 : n % 8 = 7) (x4 x5 : Vec F S8x128 .f32) (xs0 xs1 : Vec F S512x1024 .f32) :=
  runLast (F := F) c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) accM0 haccM0 accM1 haccM1
    (not_first_of_last hn h1) ((lastStep_iff ⟨n, hn⟩).mpr h1) (iblk m c 0 ⟨n, hn⟩) (iblk m c 1 ⟨n, hn⟩) (iblk m c 2 ⟨n, hn⟩) (iblk m c 3 ⟨n, hn⟩) x4 x5 xs0 xs1

/-- What a first step leaves: every buffer's covering pieces, read as their canonical contents. -/
def firstVals (c : Dev nD) (n : ℕ) (hn : n < cfg0.N) (h0 : n % 8 = 0) : Vals F :=
  (View.canon (firstAt m c n hn h0).1, View.canon (firstAt m c n hn h0).2.1,
    View.canon (firstAt m c n hn h0).2.2.1, View.canon (firstAt m c n hn h0).2.2.2.1)
/-- What a middle step leaves over `prev`: the output blocks as they were, the accumulators' covering pieces. -/
def middleVals (c : Dev nD) (n : ℕ) (hn : n < cfg0.N) (h0 : ¬n % 8 = 0) (h1 : ¬n % 8 = 7) (prev : Vals F) : Vals F :=
  (prev.1, prev.2.1, View.canon (middleAt m c n hn h0 h1 prev.2.2.1 prev.2.2.2).1, View.canon (middleAt m c n hn h0 h1 prev.2.2.1 prev.2.2.2).2.1)
/-- What a last step leaves over `prev`: each output block's buffer written with its one piece over what it held,
    the accumulators' covering pieces. -/
def lastVals (c : Dev nD) (n : ℕ) (hn : n < cfg0.N) (h1 : n % 8 = 7) (prev : Vals F) : Vals F :=
  ((ms4 ⟨n, hn⟩).view.read (Elt F) ((ms4 ⟨n, hn⟩).view.writes (Elt F) ((hs4 ⟨n, hn⟩).unread prev.1) (lastAt m c n hn h1 prev.1 prev.2.1 prev.2.2.1 prev.2.2.2).1),
    (ms5 ⟨n, hn⟩).view.read (Elt F) ((ms5 ⟨n, hn⟩).view.writes (Elt F) ((hs5 ⟨n, hn⟩).unread prev.2.1) (lastAt m c n hn h1 prev.1 prev.2.1 prev.2.2.1 prev.2.2.2).2.1),
    View.canon (lastAt m c n hn h1 prev.1 prev.2.1 prev.2.2.1 prev.2.2.2).2.2.1, View.canon (lastAt m c n hn h1 prev.1 prev.2.1 prev.2.2.1 prev.2.2.2).2.2.2.1)

/-! ## The recursion on the point -/

/-- THE FOUR CONTENTS after the body at position `n`: the case the step selects, a middle or last step over what
    position `n - 1` left. -/
def outsAt (c : Dev nD) : (n : ℕ) → n < cfg0.N → Vals F
  | 0, hn => firstVals m c 0 hn (Nat.zero_mod _)
  | n + 1, hn =>
    if h0 : (n + 1) % 8 = 0 then firstVals m c (n + 1) hn h0
    else if h1 : (n + 1) % 8 = 7 then lastVals m c (n + 1) hn h1 (outsAt c n (Nat.lt_of_succ_lt hn))
    else middleVals m c (n + 1) hn h0 h1 (outsAt c n (Nat.lt_of_succ_lt hn))

theorem outsAt_first (c : Dev nD) (n : ℕ) (hn : n < cfg0.N) (h0 : n % 8 = 0) :
    outsAt m c n hn = firstVals m c n hn h0 := by
  cases n with
  | zero => rfl
  | succ n => exact (dif_pos h0).trans rfl

theorem outsAt_middle (c : Dev nD) (n : ℕ) (hn : n < cfg0.N) (h0 : ¬n % 8 = 0) (h1 : ¬n % 8 = 7) :
    outsAt m c n hn = middleVals m c n hn h0 h1 (outsAt m c (n - 1) (Nat.lt_of_le_of_lt (Nat.sub_le _ _) hn)) := by
  cases n with
  | zero => exact absurd (Nat.zero_mod _) h0
  | succ n => exact (dif_neg h0).trans ((dif_neg h1).trans rfl)

theorem outsAt_last (c : Dev nD) (n : ℕ) (hn : n < cfg0.N) (h1 : n % 8 = 7) :
    outsAt m c n hn = lastVals m c n hn h1 (outsAt m c (n - 1) (Nat.lt_of_le_of_lt (Nat.sub_le _ _) hn)) := by
  cases n with
  | zero => exact absurd h1 (by decide)
  | succ n =>
    have h0 : ¬(n + 1) % 8 = 0 := by omega
    exact (dif_neg h0).trans ((dif_pos h1).trans rfl)

/-- A middle step hands both output blocks on. -/
theorem middleVals_fst (c : Dev nD) (n : ℕ) (hn : n < cfg0.N) (h0 : ¬n % 8 = 0) (h1 : ¬n % 8 = 7) (prev : Vals F) :
    (middleVals m c n hn h0 h1 prev).1 = prev.1 := by
  unfold middleVals; dsimp only
theorem middleVals_snd (c : Dev nD) (n : ℕ) (hn : n < cfg0.N) (h0 : ¬n % 8 = 0) (h1 : ¬n % 8 = 7) (prev : Vals F) :
    (middleVals m c n hn h0 h1 prev).2.1 = prev.2.1 := by
  unfold middleVals; dsimp only

/-! ## The invariant: the accumulators carried between points -/

/-- Before the first point the region's own invariant (each accumulator at anything); before a later point the
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) accM0 fullShare ((outsAt m c n hn).2.2.1) ∗ owns (c : Thread nD τ) accM1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM0 fullShare ((outsAt m c n hn).2.2.1) ∗ owns (c : Thread nD τ) accM1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) accM0 fullShare ((outsAt m c (n - 1) (by omega)).2.2.1) ∗ owns (c : Thread nD τ) accM1 fullShare ((outsAt m c (n - 1) (by omega)).2.2.2)) ∗ (∃ r, prngReg c r)) := by
  cases n with
  | zero => exact absurd rfl hz
  | succ n => rfl

/-! ## The pipeline's proof data -/

/-- The arrays as the region finds them; after the body each input's buffer at its block, each output block's buffer
    at `outsAt`'s component (consulted at the first and last steps only: at a middle step the block is idle); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- An output block's buffer, left by a step that stored into it, is found whole by the next (the blocks tile the array). -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t), Window.fill_cut]
theorem kept5 (c : Dev nD) (t : Fin cfg0.N) (d) : (dats m 0 c).kept 5 t d = (dats m 0 c).after 5 t := by
  unfold Dat.kept
  rw [Pipeline.fill_of_clip_none (cfg := cfg0) 5 _ (fun _ => rfl) d ((dats m 0 c).after 5 t), Window.fill_cut]

/-- At any step but a first, the first output block's buffer holds what the step before left: it is written back only
    after a last step, a first step's zeros are found by the step after it, and a middle step hands on what it found. -/
theorem before4 (c : Dev nD) : ∀ (n : ℕ) (hn : n < cfg0.N) (h0 : ¬n % 8 = 0) (d),
    (dats m 0 c).before 4 ⟨n, hn⟩ d = (outsAt m c (n - 1) (Nat.lt_of_le_of_lt (Nat.sub_le _ _) hn)).1 := by
  intro n
  induction n using Nat.strong_induction_on with
  | _ n ih =>
    intro hn h0 d
    have hN : n < 128 := lt_of_lt_of_eq hn (show cfg0.N = 128 from N_0)
    have hpos : n ≠ 0 := fun h => h0 (by rw [h])
    have hfl : (cfg0.win 4).flush ⟨n - 1, Nat.lt_of_le_of_lt (Nat.sub_le _ _) hn⟩ = false :=
      Bool.eq_false_iff.mpr fun h => by have := (flush0_4 _).mp h; dsimp only at this; omega
    rw [(dats m 0 c).before_of_pos 4 ⟨n, hn⟩ hpos ((cfg0.win 4).fetch_out rfl _) d]
    dsimp only
    rw [hfl, if_neg Bool.false_ne_true]
    unfold Dat.left
    by_cases hp : (n - 1) % 8 = 0
    · have hi : cfg0.idle 4 (grid0.coords ⟨n - 1, Nat.lt_of_le_of_lt (Nat.sub_le _ _) hn⟩) = false :=
        Bool.eq_false_iff.mpr fun h => ((idle4_iff _).mp h).1 hp
      rw [hi]; dsimp only
      rw [kept4, after4]
    · have hq : ¬(n - 1) % 8 = 7 := by omega
      have hi : cfg0.idle 4 (grid0.coords ⟨n - 1, Nat.lt_of_le_of_lt (Nat.sub_le _ _) hn⟩) = true :=
        (idle4_iff _).mpr ⟨hp, hq⟩
      rw [hi]; dsimp only
      rw [ih (n - 1) (by omega) _ hp d, outsAt_middle m c (n - 1) _ hp hq]
      exact (middleVals_fst m c (n - 1) _ hp hq _).symm

theorem before5 (c : Dev nD) : ∀ (n : ℕ) (hn : n < cfg0.N) (h0 : ¬n % 8 = 0) (d),
    (dats m 0 c).before 5 ⟨n, hn⟩ d = (outsAt m c (n - 1) (Nat.lt_of_le_of_lt (Nat.sub_le _ _) hn)).2.1 := by
  intro n
  induction n using Nat.strong_induction_on with
  | _ n ih =>
    intro hn h0 d
    have hN : n < 128 := lt_of_lt_of_eq hn (show cfg0.N = 128 from N_0)
    have hpos : n ≠ 0 := fun h => h0 (by rw [h])
    have hfl : (cfg0.win 5).flush ⟨n - 1, Nat.lt_of_le_of_lt (Nat.sub_le _ _) hn⟩ = false :=
      Bool.eq_false_iff.mpr fun h => by have := (flush0_5 _).mp h; dsimp only at this; omega
    rw [(dats m 0 c).before_of_pos 5 ⟨n, hn⟩ hpos ((cfg0.win 5).fetch_out rfl _) d]
    dsimp only
    rw [hfl, if_neg Bool.false_ne_true]
    unfold Dat.left
    by_cases hp : (n - 1) % 8 = 0
    · have hi : cfg0.idle 5 (grid0.coords ⟨n - 1, Nat.lt_of_le_of_lt (Nat.sub_le _ _) hn⟩) = false :=
        Bool.eq_false_iff.mpr fun h => ((idle5_iff _).mp h).1 hp
      rw [hi]; dsimp only
      rw [kept5, after5]
    · have hq : ¬(n - 1) % 8 = 7 := by omega
      have hi : cfg0.idle 5 (grid0.coords ⟨n - 1, Nat.lt_of_le_of_lt (Nat.sub_le _ _) hn⟩) = true :=
        (idle5_iff _).mpr ⟨hp, hq⟩
      rw [hi]; dsimp only
      rw [ih (n - 1) (by omega) _ hp d, outsAt_middle m c (n - 1) _ hp hq]
      exact (middleVals_snd m c (n - 1) _ hp hq _).symm

end Cert.KernelIdeal.Body

end
-- ==== Proof.KIBody.lean ====
/-
  THE BODY OBLIGATION, THE RUN AND THE FRAME. At every point the body is handed the invariant, each input block's buffer
  at its block and each output block's buffer at what it then holds, and must hand back the invariant for the next
  point and every buffer at what the proof data says it leaves. By cases on the step: at a first step the run of the
  first case applies with the output blocks and the accumulators at anything; at a middle step the run of the middle
  case applies with the accumulators at what the step before left, and the two output blocks — idle there — pass
  through untouched; at a last step the run of the last case applies with the output blocks and the accumulators at
  what the step before left. The accumulators' covering pieces read as their canonical contents; a last step's single
  piece over the block's known contents is the proof data's own term. The run of @main is then the library's frame run
  for a region followed by host operations, with the invariant tracking the accumulators, and the frame claim its
  projection to the two argument arrays.
-/
import proofs.«138254_j609885356367_2_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  unfold bodyPre bodyPost bodyAt0
  simp only [before0, before1, before2, before3]
  rw [show (dats m 0 c).owesAt () (Fin.succ ⟨n, hn⟩) = (dats m 0 c).owesAt () (Fin.castSucc ⟨n, hn⟩) from rfl]
  rw [show (dats m 0 c).Φ (Fin.succ ⟨n, hn⟩) = PhiS m c (n + 1) hn from rfl, PhiS_succ]
  have hN : n < 128 := lt_of_lt_of_eq hn (show cfg0.N = 128 from N_0)
  rw [show (dats m 0 c).leavesExact 0 ⟨n, hn⟩ = owns (c : Thread nD τ) (ms0 ⟨n, hn⟩) fullShare ((dats m 0 c).after 0 ⟨n, hn⟩) from by
    unfold Dat.leavesExact; rw [live0 ⟨n, hn⟩], after0]
  rw [show (dats m 0 c).leavesExact 1 ⟨n, hn⟩ = owns (c : Thread nD τ) (ms1 ⟨n, hn⟩) fullShare ((dats m 0 c).after 1 ⟨n, hn⟩) from by
    unfold Dat.leavesExact; rw [live1 ⟨n, hn⟩], after1]
  rw [show (dats m 0 c).leavesExact 2 ⟨n, hn⟩ = owns (c : Thread nD τ) (ms2 ⟨n, hn⟩) fullShare ((dats m 0 c).after 2 ⟨n, hn⟩) from by
    unfold Dat.leavesExact; rw [live2 ⟨n, hn⟩], after2]
  rw [show (dats m 0 c).leavesExact 3 ⟨n, hn⟩ = owns (c : Thread nD τ) (ms3 ⟨n, hn⟩) fullShare ((dats m 0 c).after 3 ⟨n, hn⟩) from by
    unfold Dat.leavesExact; rw [live3 ⟨n, hn⟩], after3]
  by_cases h0 : n % 8 = 0
  · have hi4 : cfg0.idle 4 (grid0.coords ⟨n, hn⟩) = false := Bool.eq_false_iff.mpr fun h => ((idle4_iff ⟨n, hn⟩).mp h).1 h0
    have hi5 : cfg0.idle 5 (grid0.coords ⟨n, hn⟩) = false := Bool.eq_false_iff.mpr fun h => ((idle5_iff ⟨n, hn⟩).mp h).1 h0
    rw [show (dats m 0 c).leavesExact 4 ⟨n, hn⟩ = owns (c : Thread nD τ) (ms4 ⟨n, hn⟩) fullShare ((dats m 0 c).after 4 ⟨n, hn⟩) from by
      unfold Dat.leavesExact; rw [hi4], after4]
    rw [show (dats m 0 c).leavesExact 5 ⟨n, hn⟩ = owns (c : Thread nD τ) (ms5 ⟨n, hn⟩) fullShare ((dats m 0 c).after 5 ⟨n, hn⟩) from by
      unfold Dat.leavesExact; rw [hi5], after5]
    (try dsimp only)
    rw [outsAt_first m c n hn h0]
    unfold firstVals firstAt; (try dsimp only)
    by_cases hz : n = 0
    · rw [PhiS_castSucc m c ⟨n, hn⟩, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords ⟨n, hn⟩) _ _ _ _ _ _ _ _ _ _ _ _ _ _ _ _ ((firstStep_iff ⟨n, hn⟩).mpr h0) (not_last_of_first hn h0) (iblk m c 0 ⟨n, hn⟩) (iblk m c 1 ⟨n, hn⟩) (iblk m c 2 ⟨n, hn⟩) (iblk m c 3 ⟨n, hn⟩)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverFirstS0 c _ _ _ _ _ _ _ _ _ _ _ _ _ _ _ _ _ _ _ _ _ _ _)
          unfold owns; iexists _; isplitr
          swap; · iexact HS1
          ipureintro; exact View.read_writes_eq_canon _ _ _ (coverFirstS1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverFirst4 c _ _ _ _ _ _ _ _ _ _ _ _ _ _ _ _ _ _ _ _ _ _ _)
      unfold owns; iexists _; isplitr
      swap; · iexact H5
      ipureintro; exact View.read_writes_eq_canon _ _ _ (coverFirst5 c _ _ _ _ _ _ _ _ _ _ _ _ _ _ _ _ _ _ _ _ _ _ _)
    · rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords ⟨n, hn⟩) _ _ _ _ _ _ _ _ _ _ _ _ _ _ _ _ ((firstStep_iff ⟨n, hn⟩).mpr h0) (not_last_of_first hn h0) (iblk m c 0 ⟨n, hn⟩) (iblk m c 1 ⟨n, hn⟩) (iblk m c 2 ⟨n, hn⟩) (iblk m c 3 ⟨n, hn⟩)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverFirstS0 c _ _ _ _ _ _ _ _ _ _ _ _ _ _ _ _ _ _ _ _ _ _ _)
          unfold owns; iexists _; isplitr
          swap; · iexact HS1
          ipureintro; exact View.read_writes_eq_canon _ _ _ (coverFirstS1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverFirst4 c _ _ _ _ _ _ _ _ _ _ _ _ _ _ _ _ _ _ _ _ _ _ _)
      unfold owns; iexists _; isplitr
      swap; · iexact H5
      ipureintro; exact View.read_writes_eq_canon _ _ _ (coverFirst5 c _ _ _ _ _ _ _ _ _ _ _ _ _ _ _ _ _ _ _ _ _ _ _)
  · have hz : n ≠ 0 := fun h => h0 (by rw [h])
    by_cases h1 : n % 8 = 7
    · have hi4 : cfg0.idle 4 (grid0.coords ⟨n, hn⟩) = false := Bool.eq_false_iff.mpr fun h => ((idle4_iff ⟨n, hn⟩).mp h).2 h1
      have hi5 : cfg0.idle 5 (grid0.coords ⟨n, hn⟩) = false := Bool.eq_false_iff.mpr fun h => ((idle5_iff ⟨n, hn⟩).mp h).2 h1
      rw [show (dats m 0 c).leavesExact 4 ⟨n, hn⟩ = owns (c : Thread nD τ) (ms4 ⟨n, hn⟩) fullShare ((dats m 0 c).after 4 ⟨n, hn⟩) from by
        unfold Dat.leavesExact; rw [hi4], after4]
      rw [show (dats m 0 c).leavesExact 5 ⟨n, hn⟩ = owns (c : Thread nD τ) (ms5 ⟨n, hn⟩) fullShare ((dats m 0 c).after 5 ⟨n, hn⟩) from by
        unfold Dat.leavesExact; rw [hi5], after5]
      simp only [before4 m c n hn h0, before5 m c n hn h0]
      (try dsimp only)
      rw [outsAt_last m c n hn h1]
      unfold lastVals lastAt; (try dsimp only)
      rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords ⟨n, hn⟩) _ _ _ _ _ _ _ _ _ _ _ _ _ _ _ _ (not_first_of_last hn h1) ((lastStep_iff ⟨n, hn⟩).mpr h1) (iblk m c 0 ⟨n, hn⟩) (iblk m c 1 ⟨n, hn⟩) (iblk m c 2 ⟨n, hn⟩) (iblk m c 3 ⟨n, hn⟩) _ _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverLastS0 c _ _ _ _ _ _ _ _ _ _ _ _ _ _ _ _ _ _ _ _ _ _ _ _ _ _ _)
          unfold owns; iexists _; isplitr
          swap; · iexact HS1
          ipureintro; exact View.read_writes_eq_canon _ _ _ (coverLastS1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; rfl
      unfold owns; iexists _; isplitr
      swap; · iexact H5
      ipureintro; rfl
    · have hi4 : cfg0.idle 4 (grid0.coords ⟨n, hn⟩) = true := (idle4_iff ⟨n, hn⟩).mpr ⟨h0, h1⟩
      have hi5 : cfg0.idle 5 (grid0.coords ⟨n, hn⟩) = true := (idle5_iff ⟨n, hn⟩).mpr ⟨h0, h1⟩
      have hf4 : (cfg0.win 4).flush ⟨n, hn⟩ = false := Bool.eq_false_iff.mpr fun h => h1 ((flush0_4 ⟨n, hn⟩).mp h)
      have hf5 : (cfg0.win 5).flush ⟨n, hn⟩ = false := Bool.eq_false_iff.mpr fun h => h1 ((flush0_5 ⟨n, hn⟩).mp h)
      rw [(dats m 0 c).leavesExact_idle 4 ⟨n, hn⟩ hi4 hf4, (dats m 0 c).leavesExact_idle 5 ⟨n, hn⟩ hi5 hf5]
      (try dsimp only)
      rw [outsAt_middle m c n hn h0 h1]
      unfold middleVals middleAt; (try dsimp only)
      rw [PhiS_castSucc m c ⟨n, hn⟩, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMiddle c (grid0.coords ⟨n, hn⟩) _ _ _ _ _ _ _ _ _ _ _ _ _ _ _ _ (fun h => h0 ((firstStep_iff ⟨n, hn⟩).mp h)) (fun h => h1 ((lastStep_iff ⟨n, hn⟩).mp h)) (iblk m c 0 ⟨n, hn⟩) (iblk m c 1 ⟨n, hn⟩) (iblk m c 2 ⟨n, hn⟩) (iblk m c 3 ⟨n, hn⟩) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_eq_canon _ _ _ (coverMiddleS0 c _ _ _ _ _ _ _ _ _ _ _ _ _ _ _ _ _ _ _ _ _ _ _ _ _)
          unfold owns; iexists _; isplitr
          swap; · iexact HS1
          ipureintro; exact View.read_writes_eq_canon _ _ _ (coverMiddleS1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what
    the library computes from the proof data and every other unscoped buffer at what the host operations after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KIValues.lean ====
/-
  THE PIECES THE RUNS FOUND, READ AS VALUES (at any float instance). Each buffer a step overwrites whole ends holding
  the payload of its last covering store, a pure term of the step's loads: a first step leaves zeros in both output
  blocks and, in each accumulator, this step's terms added to zeros; a middle or last step leaves each accumulator at
  its old contents plus this step's terms; and a last step overwrites entry (0, 0) of each output block with the sum of
  the corresponding (updated) accumulator, every other entry keeping what the block held.
-/
import proofs.«138254_j609885356367_2_alg».proof.Proof.KIData
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem first_O4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) :
    View.canon (runFirst (F := F) c i arg2 harg2 arg3 harg3 arg4 harg4 arg5 harg5 arg6 harg6 arg7 harg7 arg8 harg8 arg9 harg9 hc0 hc1 x0 x1 x2 x3).1 = k0_pay5 (F := F) := by
  unfold runFirst
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem first_O5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) :
    View.canon (runFirst (F := F) c i arg2 harg2 arg3 harg3 arg4 harg4 arg5 harg5 arg6 harg6 arg7 harg7 arg8 harg8 arg9 harg9 hc0 hc1 x0 x1 x2 x3).2.1 = k0_pay6 (F := F) := by
  unfold runFirst
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem first_S0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) :
    View.canon (runFirst (F := F) c i arg2 harg2 arg3 harg3 arg4 harg4 arg5 harg5 arg6 harg6 arg7 harg7 arg8 harg8 arg9 harg9 hc0 hc1 x0 x1 x2 x3).2.2.1 = k0_pay8 x1 x3 x0 x2 (k0_pay3 (F := F)) := by
  unfold runFirst
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem first_S1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : firstStep i) (hc1 : ¬lastStep i) (x0 : Vec F S512x1 .f32) (x1 : Vec F S512x1 .f32) (x2 : Vec F S1x1024 .f32) (x3 : Vec F S1x1024 .f32) :
    View.canon (runFirst (F := F) c i arg2 harg2 arg3 harg3 arg4 harg4 arg5 harg5 arg6 harg6 arg7 harg7 arg8 harg8 arg9 harg9 hc0 hc1 x0 x1 x2 x3).2.2.2.1 = k0_pay9 x1 x3 (k0_pay4 (F := F)) := by
  unfold runFirst
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem middle_S0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) :
    View.canon (runMiddle (F := F) c i arg2 harg2 arg3 harg3 arg4 harg4 arg5 harg5 arg6 harg6 arg7 harg7 arg8 harg8 arg9 harg9 hc0 hc1 x0 x1 x2 x3 xs0 xs1).1 = k0_pay8 x1 x3 x0 x2 xs0 := by
  unfold runMiddle
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem middle_S1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : ¬lastStep i) (x0 : Vec F S512x1 .f32) (x1 : Vec F S512x1 .f32) (x2 : Vec F S1x1024 .f32) (x3 : Vec F S1x1024 .f32) (xs0 xs1 : Vec F S512x1024 .f32) :
    View.canon (runMiddle (F := F) c i arg2 harg2 arg3 harg3 arg4 harg4 arg5 harg5 arg6 harg6 arg7 harg7 arg8 harg8 arg9 harg9 hc0 hc1 x0 x1 x2 x3 xs0 xs1).2.1 = k0_pay9 x1 x3 xs1 := by
  unfold runMiddle
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem last_S0 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) :
    View.canon (runLast (F := F) c i arg2 harg2 arg3 harg3 arg4 harg4 arg5 harg5 arg6 harg6 arg7 harg7 arg8 harg8 arg9 harg9 hc0 hc1 x0 x1 x2 x3 x4 x5 xs0 xs1).2.2.1 = k0_pay8 x1 x3 x0 x2 xs0 := by
  unfold runLast
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem last_S1 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) :
    View.canon (runLast (F := F) c i arg2 harg2 arg3 harg3 arg4 harg4 arg5 harg5 arg6 harg6 arg7 harg7 arg8 harg8 arg9 harg9 hc0 hc1 x0 x1 x2 x3 x4 x5 xs0 xs1).2.2.2.1 = k0_pay9 x1 x3 xs1 := by
  unfold runLast
  dsimp only
  sl_unfold_words
  first | rw [View.canon_unit_zero hz] | rw [View.canon_cons_unit_zero hz]
  all_goals (first | rfl | (simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]; first | done | rfl))

theorem last_O4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S8x128.Idx) :
    arg6.view.read (Elt F) (arg6.view.writes (Elt F) (harg6.unread x4) (runLast (F := F) c i arg2 harg2 arg3 harg3 arg4 harg4 arg5 harg5 arg6 harg6 arg7 harg7 arg8 harg8 arg9 harg9 hc0 hc1 x0 x1 x2 x3 x4 x5 xs0 xs1).1) y
      = if y = ix2 (0 : Fin 8) (0 : Fin 128) then k0_pay1 (k0_pay8 x1 x3 x0 x2 xs0) (ix2 (0 : Fin 1) (0 : Fin 1)) else x4 y := by
  unfold runLast
  dsimp only
  sl_unfold_words
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]
  by_cases hy : y = ix2 (0 : Fin 8) (0 : Fin 128)
  · subst hy
    rw [if_pos rfl]
    have he : ix2 (0 : Fin 8) (0 : Fin 128)
        = (Rect.unit (s := S8x128) ![0, 0] ![1, 1] inb_S8x128_S1x1_0_0).emb (ix2 (0 : Fin 1) (0 : Fin 1)) := by
      funext a; fin_cases a <;> rfl
    rw [he, View.read_writes_cons_emb]
  · rw [if_neg hy, View.read_writes_apply_of_forall_not_mem, harg6.read_unread]
    intro p hp
    rw [List.mem_singleton] at hp
    subst hp
    rw [Rect.mem_set_unit]
    intro h
    apply hy
    funext a
    match a with
    | ⟨0, _⟩ =>
      exact Fin.ext (by
        have h0 := (h 0).2
        change (y 0).val < 0 + 1 at h0
        show (y 0).val = 0
        omega)
    | ⟨1, _⟩ =>
      exact Fin.ext (by
        have h1 := (h 1).2
        change (y 1).val < 0 + 1 at h1
        show (y 1).val = 0
        omega)

theorem last_O5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S512x1024 .f32) (harg9 : arg9.IsWhole) (hc0 : ¬firstStep i) (hc1 : lastStep i) (x0 : Vec F S512x1 .f32) (x1 : Vec F S512x1 .f32) (x2 : Vec F S1x1024 .f32) (x3 : Vec F S1x1024 .f32) (x4 x5 : Vec F S8x128 .f32) (xs0 xs1 : Vec F S512x1024 .f32) (y : S8x128.Idx) :
    arg7.view.read (Elt F) (arg7.view.writes (Elt F) (harg7.unread x5) (runLast (F := F) c i arg2 harg2 arg3 harg3 arg4 harg4 arg5 harg5 arg6 harg6 arg7 harg7 arg8 harg8 arg9 harg9 hc0 hc1 x0 x1 x2 x3 x4 x5 xs0 xs1).2.1) y
      = if y = ix2 (0 : Fin 8) (0 : Fin 128) then k0_pay2 (k0_pay9 x1 x3 xs1) (ix2 (0 : Fin 1) (0 : Fin 1)) else x5 y := by
  unfold runLast
  dsimp only
  sl_unfold_words
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x1024) hz, View.ld_unit_zero (S := S512x1024) hz, View.ld_unit_zero (S := S8x128) hz, View.readCov_unit_zero (S := S512x1024) _ hz, View.readCov_unit_zero (S := S8x128) _ hz]
  by_cases hy : y = ix2 (0 : Fin 8) (0 : Fin 128)
  · subst hy
    rw [if_pos rfl]
    have he : ix2 (0 : Fin 8) (0 : Fin 128)
        = (Rect.unit (s := S8x128) ![0, 0] ![1, 1] inb_S8x128_S1x1_0_0).emb (ix2 (0 : Fin 1) (0 : Fin 1)) := by
      funext a; fin_cases a <;> rfl
    rw [he, View.read_writes_cons_emb]
  · rw [if_neg hy, View.read_writes_apply_of_forall_not_mem, harg7.read_unread]
    intro p hp
    rw [List.mem_singleton] at hp
    subst hp
    rw [Rect.mem_set_unit]
    intro h
    apply hy
    funext a
    match a with
    | ⟨0, _⟩ =>
      exact Fin.ext (by
        have h0 := (h 0).2
        change (y 0).val < 0 + 1 at h0
        show (y 0).val = 0
        omega)
    | ⟨1, _⟩ =>
      exact Fin.ext (by
        have h1 := (h 1).2
        change (y 1).val < 0 + 1 at h1
        show (y 1).val = 0
        omega)

end Cert.KernelIdeal.Body

end
-- ==== Proof.Spec.lean ====
/-
  The function both programs compute, on the extended reals, for predictions `P` and targets `T` of length 8192:

      loss P T = w₁ · ( (0 + ∑ₖ (Pₖ − Tₖ)²) / 8192 )  +  w₂ · ( (0 + H) / max (0 + C) 1 )

  where, over ALL ordered pairs (i, j),
      H = ∑ᵢ ∑ⱼ [Tⱼ < Tᵢ] · max (Pⱼ − Pᵢ + margin) 0      (the hinge of the pairs ranked the wrong way round)
      C = ∑ᵢ ∑ⱼ [Tⱼ < Tᵢ]                                  (how many pairs are ranked at all).
  The margin, the two weights, 8192, 0 and 1 are the binary values of the float words both programs write; they are
  kept as words so that no side ever evaluates them (only the zero word and the one word are ever opened).
  Nothing here mentions a program: the module states the specification only.
-/
import Idealize.ShloMosaic.PureOps.Ideal
import Idealize.ShloMosaic.Lib.ValueIdx

noncomputable section

open scoped BigOperators

namespace Cert.PairLoss

open Idealize.ShloMosaic

/-- The float words of the two programs, read at the extended reals. -/
abbrev zero : EReal := Ideal.ofBits .f32 0x00000000#32
abbrev one : EReal := Ideal.ofBits .f32 0x3F800000#32
abbrev margin : EReal := Ideal.ofBits .f32 0x3DCCCCCD#32
abbrev count8192 : EReal := Ideal.ofBits .f32 0x46000000#32
abbrev wMse : EReal := Ideal.ofBits .f32 0x3ECCCCCD#32
abbrev wRank : EReal := Ideal.ofBits .f32 0x3F19999A#32

/-- The hinge of the ordered pair (i, j): counted only when target i is strictly above target j. -/
def hingeAt (P T : Fin 8192 → EReal) (i j : Fin 8192) : EReal :=
  if T j < T i then max (P j - P i + margin) zero else zero

/-- One for an ordered pair whose targets are strictly ordered, else nothing. -/
def countAt (T : Fin 8192 → EReal) (i j : Fin 8192) : EReal :=
  if T j < T i then 1 else 0

/-- The hinge summed over all ordered pairs. -/
def hingeSum (P T : Fin 8192 → EReal) : EReal := ∑ i : Fin 8192, ∑ j : Fin 8192, hingeAt P T i j

/-- The number of strictly ordered pairs, as an extended real. -/
def countSum (T : Fin 8192 → EReal) : EReal := ∑ i : Fin 8192, ∑ j : Fin 8192, countAt T i j

/-- The mean squared difference, as both programs compute it: a sum from the zero word, divided by the word 8192. -/
def mse (P T : Fin 8192 → EReal) : EReal :=
  Ideal.div (zero + ∑ k : Fin 8192, (P k - T k) * (P k - T k)) count8192

/-- The ranking term: the hinge sum over the number of ranked pairs, at least one. -/
def rank (P T : Fin 8192 → EReal) : EReal :=
  Ideal.div (zero + hingeSum P T) (max (zero + countSum T) one)

/-- The loss. -/
def loss (P T : Fin 8192 → EReal) : EReal := wMse * mse P T + wRank * rank P T

end Cert.PairLoss

end
-- ==== Proof.KernelReadArith.lean ====
/-
  The kernel's elementwise arithmetic read at one element, over the extended reals.

  For a column block of targets `v3` and predictions `v7` (shape 512 × 1) and a row block of targets `v5` and
  predictions `v9` (shape 1 × 1024), the body compares every column target with every row target and adds, to the two
  running 512 × 1024 accumulators, the hinge `max (p_row − p_col + margin) 0` of the pairs whose column target is strictly
  above the row target, and the count `1` of those pairs. Here each of these vector terms is read at the element (r, q):
  a broadcast of a column reads the column at (r, 0), a broadcast of a row reads the row at (0, q), the comparison
  "greater than" is the order of the extended reals, the select is an `if`, and the one-bit word widened and converted to a
  float is `1` or `0`. The reset payloads are the zero word everywhere, which is the extended real `0`.
-/
import proofs.«138254_j609885356367_2_alg».proof.Proof.Gen.KernelIdeal.Skeleton
import proofs.«138254_j609885356367_2_alg».proof.Proof.Spec
import Idealize.ShloMosaic.Lib.ValueIdx
import Idealize.ShloMosaic.Lib.Pipeline.Value
import Idealize.ShloMosaic.PureOps.Ideal.Laws

noncomputable section

open scoped BigOperators

namespace Cert.PairLoss.KRead

open Idealize.ShloMosaic Idealize.ShloMosaic.ValueIdx
open Cert.KernelIdeal

/-- A column block broadcast along the rows reads, at (r, q), the column at (r, 0). -/
theorem bcast_col_apply (v : Vec Ideal S512x1 .f32) (h : S512x1.Broadcasts S512x1024) (r : Fin 512) (q : Fin 1024) :
    broadcastTo S512x1024 v h (ix2 r q) = v (ix2 r 0) :=
  broadcastTo_apply v h (ix2 r q) (ix2 r 0) fun a =>
    match a with
    | ⟨0, _⟩ => rfl
    | ⟨1, _⟩ => rfl

/-- A row block broadcast along the columns reads, at (r, q), the row at (0, q). -/
theorem bcast_row_apply (v : Vec Ideal S1x1024 .f32) (h : S1x1024.Broadcasts S512x1024) (r : Fin 512) (q : Fin 1024) :
    broadcastTo S512x1024 v h (ix2 r q) = v (ix2 0 q) :=
  broadcastTo_apply v h (ix2 r q) (ix2 0 q) fun a =>
    match a with
    | ⟨0, _⟩ => rfl
    | ⟨1, _⟩ => rfl

/-- The comparison mask at (r, q): the bit of "row target q is strictly below column target r". -/
theorem pay7_apply (v3 : Vec Ideal S512x1 .f32) (v5 : Vec Ideal S1x1024 .f32) (r : Fin 512) (q : Fin 1024) :
    Gen.k0_pay7 (F := Ideal) v3 v5 (ix2 r q) = BitVec.ofBool (decide (v5 (ix2 0 q) < v3 (ix2 r 0))) := by
  unfold Gen.k0_pay7
  simp only [shapeCast_self]
  rw [cmpf_apply, bcast_col_apply, bcast_row_apply]
  rfl

/-- The hinge accumulator's new value at (r, q): the old value plus the pair's hinge, counted when the row target is
    strictly below the column target. -/
theorem pay8_apply (v3 : Vec Ideal S512x1 .f32) (v5 : Vec Ideal S1x1024 .f32) (v7 : Vec Ideal S512x1 .f32)
    (v9 : Vec Ideal S1x1024 .f32) (acc : Vec Ideal S512x1024 .f32) (r : Fin 512) (q : Fin 1024) :
    Gen.k0_pay8 (F := Ideal) v3 v5 v7 v9 acc (ix2 r q)
      = acc (ix2 r q) + (if v5 (ix2 0 q) < v3 (ix2 r 0) then max (v9 (ix2 0 q) - v7 (ix2 r 0) + margin) zero else zero) := by
  unfold Gen.k0_pay8
  simp only [shapeCast_self]
  rw [addf_apply, select_apply, pay7_apply, maximumf_apply, addf_apply, subf_apply, bcast_row_apply, bcast_col_apply]
  simp only [broadcast_apply]
  by_cases h : v5 (ix2 0 q) < v3 (ix2 r 0)
  · rw [if_pos h, decide_eq_true h]; rfl
  · rw [if_neg h, decide_eq_false h]; rfl

/-- The count accumulator's new value at (r, q): the old value plus one when the row target is strictly below the
    column target. -/
theorem pay9_apply (v3 : Vec Ideal S512x1 .f32) (v5 : Vec Ideal S1x1024 .f32) (acc : Vec Ideal S512x1024 .f32)
    (r : Fin 512) (q : Fin 1024) :
    Gen.k0_pay9 (F := Ideal) v3 v5 acc (ix2 r q)
      = acc (ix2 r q) + (if v5 (ix2 0 q) < v3 (ix2 r 0) then 1 else 0) := by
  unfold Gen.k0_pay9
  simp only [shapeCast_self]
  rw [addf_apply, sitofp_apply, extui_apply, pay7_apply]
  by_cases h : v5 (ix2 0 q) < v3 (ix2 r 0)
  · rw [if_pos h, decide_eq_true h]
    show acc (ix2 r q) + (((BitVec.setWidth 32 (BitVec.ofBool true)).toInt : ℝ) : EReal) = _
    rw [show (BitVec.setWidth 32 (BitVec.ofBool true)).toInt = 1 by decide, Int.cast_one, EReal.coe_one]
  · rw [if_neg h, decide_eq_false h]
    show acc (ix2 r q) + (((BitVec.setWidth 32 (BitVec.ofBool false)).toInt : ℝ) : EReal) = _
    rw [show (BitVec.setWidth 32 (BitVec.ofBool false)).toInt = 0 by decide, Int.cast_zero, EReal.coe_zero]

/-- The hinge accumulator's reset is zero everywhere. -/
theorem pay3_apply (r : Fin 512) (q : Fin 1024) : Gen.k0_pay3 (F := Ideal) (ix2 r q) = 0 := by
  unfold Gen.k0_pay3
  simp only [shapeCast_self]
  exact Ideal.ofBits_zero_f32

/-- The count accumulator's reset is zero everywhere. -/
theorem pay4_apply (r : Fin 512) (q : Fin 1024) : Gen.k0_pay4 (F := Ideal) (ix2 r q) = 0 := by
  unfold Gen.k0_pay4
  simp only [shapeCast_self]
  exact Ideal.ofBits_zero_f32

/-- The first output block's reset is zero everywhere. -/
theorem pay5_apply (y : S8x128.Idx) : Gen.k0_pay5 (F := Ideal) y = 0 := Ideal.ofBits_zero_f32

/-- The second output block's reset is zero everywhere. -/
theorem pay6_apply (y : S8x128.Idx) : Gen.k0_pay6 (F := Ideal) y = 0 := Ideal.ofBits_zero_f32

end Cert.PairLoss.KRead

end
-- ==== Proof.KernelReadSums.lean ====
/-
  The kernel's final reduction read at its one element, over the extended reals.

  At the last column block of a row of the grid the body sums each 512 × 1024 accumulator to a single number: first along
  the columns (a sum over q for every row r, from the zero word), the 512 results kept as a column, then along the rows (a
  sum over r, from the zero word), the one result kept as a 1 × 1 block. Read at (0, 0) this is the double sum
  `∑ r, ∑ q, v (r, q)`: a one-axis sum at the extended reals is the sum over that axis's coordinates, and the two casts keep
  the row-major position.
-/
import proofs.«138254_j609885356367_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.PairLoss.KRead

open Idealize.ShloMosaic Idealize.ShloMosaic.ValueIdx
open Cert.KernelIdeal

/-- A vector of length `n` kept as a column reads, at (k, 0), the vector at k. -/
theorem keep_col_apply {n : ℕ} (x : (⟨1, ![n]⟩ : Shape).Idx → EReal) (h : (⟨1, ![n]⟩ : Shape).ShapeCasts ⟨2, ![n, 1]⟩)
    (k : Fin n) : shapeCast ⟨2, ![n, 1]⟩ x h (ix2 k (0 : Fin 1)) = x (ix1 k) :=
  shapeCast_apply x h _ _ (by
    rw [Shape.rowMajor_val_two, Shape.rowMajor_val_one]
    show k.val = k.val * 1 + 0
    omega)

/-- The sum along the columns of a 512 × 1024 block, from the zero word, at row `r`. -/
theorem sum_cols_apply (v : FVec Ideal S512x1024 .f32) (h : S512x1024.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ q : Fin 1024, v (ix2 r q) := by
  refine (Ideal.multiReduction_add_single v 0x00000000#32 h hφ hacc (ix1 r)).trans ?_
  refine Finset.sum_congr rfl fun q _ => congrArg v ?_
  funext a
  match a with
  | ⟨0, _⟩ => exact Fin.ext rfl
  | ⟨1, _⟩ => exact Fin.ext rfl

/-- The sum along the rows of a 512 × 1 column, from the zero word, at its one element. -/
theorem sum_rows_apply (v : FVec Ideal S512x1 .f32) (h : S512x1.Reduces [0] S1) (hφ : FKind.Formats .f32)
    (hacc : (0x00000000#32 : BitVec 32) = FKind.add.neutral .f32 hφ) :
    multiReduction (F := Ideal) .add [0] S1 v 0x00000000#32 h hφ hacc (ix1 0) = ∑ r : Fin 512, v (ix2 r 0) := by
  refine (Ideal.multiReduction_add_single v 0x00000000#32 h hφ hacc (ix1 0)).trans ?_
  refine Finset.sum_congr rfl fun r _ => congrArg v ?_
  funext a
  match a with
  | ⟨0, _⟩ => exact Fin.ext rfl
  | ⟨1, _⟩ => exact Fin.ext rfl

/-- The hinge accumulator summed to one number: the double sum over its rows and columns. -/
theorem pay1_apply (v : Vec Ideal S512x1024 .f32) :
    Gen.k0_pay1 (F := Ideal) v (ix2 0 0) = ∑ r : Fin 512, ∑ q : Fin 1024, v (ix2 r q) := by
  unfold Gen.k0_pay1
  refine (keep_col_apply _ _ (0 : Fin 1)).trans ?_
  refine (sum_rows_apply _ _ _ _).trans ?_
  refine Finset.sum_congr rfl fun r _ => ?_
  refine (keep_col_apply _ _ r).trans ?_
  exact sum_cols_apply v _ _ _ r

/-- The count accumulator summed to one number: the double sum over its rows and columns. -/
theorem pay2_apply (v : Vec Ideal S512x1024 .f32) :
    Gen.k0_pay2 (F := Ideal) v (ix2 0 0) = ∑ r : Fin 512, ∑ q : Fin 1024, v (ix2 r q) := by
  unfold Gen.k0_pay2
  refine (keep_col_apply _ _ (0 : Fin 1)).trans ?_
  refine (sum_rows_apply _ _ _ _).trans ?_
  refine Finset.sum_congr rfl fun r _ => ?_
  refine (keep_col_apply _ _ r).trans ?_
  exact sum_cols_apply v _ _ _ r

end Cert.PairLoss.KRead

end
-- ==== Proof.KernelReadBlocks.lean ====
/-
  The kernel's four input blocks at a grid point, read at one element of the two argument arrays.

  The predictions `P` and the targets `T` (length 8192) are each reshaped on the host into a column (8192 × 1) and a row
  (1 × 8192). On the 16 × 8 grid, point `t` has coordinates (t / 8, t % 8); the column windows read the 512 × 1 block
  number t / 8 and the row windows the 1 × 1024 block number t % 8. So the column block at row `r` is the argument at
  `512 · (t / 8) + r` and the row block at column `q` is the argument at `1024 · (t % 8) + q`: a block's coordinate is
  the block index times the block's size plus the coordinate inside the block, and a reshape keeps the row-major position.
-/
import proofs.«138254_j609885356367_2_alg».proof.Proof.Gen.KernelIdeal.Frame
import Idealize.ShloMosaic.Lib.ValueIdx
import Idealize.ShloMosaic.Lib.Pipeline.Value
import Idealize.ShloMosaic.Lib.StableHlo.Run

noncomputable section

namespace Cert.PairLoss.KRead

open Idealize.ShloMosaic Idealize.ShloMosaic.ValueIdx Idealize.ShloMosaic.TcCoe Idealize.SL.Sem
open Cert.KernelIdeal

variable (m : (ℓ : Loc nD τ sig) → Buf (Elt Ideal) ℓ)

/-- The block index of each input window at a point of the 16 × 8 grid: point `t` has coordinates (t / 8, t % 8); the
    column windows move with the first coordinate, the row windows with the second. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = 0 ∧ win0_2.index t (1 : Fin 2) = t.val % 8)
    ∧ (win0_3.index t (0 : Fin 2) = 0 ∧ win0_3.index t (1 : Fin 2) = t.val % 8) :=
  (by decide +kernel : ∀ t : Fin grid0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = 0 ∧ win0_2.index t (1 : Fin 2) = t.val % 8)
    ∧ (win0_3.index t (0 : Fin 2) = 0 ∧ win0_3.index t (1 : Fin 2) = t.val % 8))

/-- A point of the grid is below 128. -/
theorem point_lt (t : Fin cfg0.N) : t.val < 128 := by
  have h := t.isLt
  have hN : cfg0.N = 128 := Gen.N_0
  omega

/-- Row `r` of column block `t / 8` is a row of the array. -/
theorem col_lt (t : Fin cfg0.N) (r : Fin 512) : 512 * (t.val / 8) + r.val < 8192 := by
  have := point_lt t; have := r.isLt; omega

/-- Column `q` of row block `t % 8` is a column of the array. -/
theorem row_lt (t : Fin cfg0.N) (q : Fin 1024) : 1024 * (t.val % 8) + q.val < 8192 := by
  have := q.isLt; omega

/-! ## The four arrays the windows read: the two arguments, reshaped on the host -/

/-- The first window's array is the predictions as a column. -/
theorem V_main_v0 (c : Dev nD) :
    (Gen.V m c main_v0 : S8192x1.Idx → EReal)
      = shapeCast S8192x1 (m ((c : Thread nD τ).loc main_arg0) : S8192.Idx → EReal) Gen.shapeCasts_S8192_S8192x1 := by
  show StableHlo.after Gen.hostOps0 (fun b => m (c, b)) (Proc.devRef .tc main_v0) = _
  after_results
  rfl

/-- The second window's array is the targets as a column. -/
theorem V_main_v1 (c : Dev nD) :
    (Gen.V m c main_v1 : S8192x1.Idx → EReal)
      = shapeCast S8192x1 (m ((c : Thread nD τ).loc main_arg1) : S8192.Idx → EReal) Gen.shapeCasts_S8192_S8192x1 := by
  show StableHlo.after Gen.hostOps0 (fun b => m (c, b)) (Proc.devRef .tc main_v1) = _
  after_results
  rfl

/-- The third window's array is the predictions as a row. -/
theorem V_main_v2 (c : Dev nD) :
    (Gen.V m c main_v2 : S1x8192.Idx → EReal)
      = shapeCast S1x8192 (m ((c : Thread nD τ).loc main_arg0) : S8192.Idx → EReal) Gen.shapeCasts_S8192_S1x8192 := by
  show StableHlo.after Gen.hostOps0 (fun b => m (c, b)) (Proc.devRef .tc main_v2) = _
  after_results
  rfl

/-- The fourth window's array is the targets as a row. -/
theorem V_main_v3 (c : Dev nD) :
    (Gen.V m c main_v3 : S1x8192.Idx → EReal)
      = shapeCast S1x8192 (m ((c : Thread nD τ).loc main_arg1) : S8192.Idx → EReal) Gen.shapeCasts_S8192_S1x8192 := by
  show StableHlo.after Gen.hostOps0 (fun b => m (c, b)) (Proc.devRef .tc main_v3) = _
  after_results
  rfl

/-- A vector of length `n` cast to a column reads, at (k, 0), the vector at k. -/
theorem shapeCast_col_apply {n : ℕ} (x : (⟨1, ![n]⟩ : Shape).Idx → EReal) (h : (⟨1, ![n]⟩ : Shape).ShapeCasts ⟨2, ![n, 1]⟩)
    (k : Fin n) : shapeCast ⟨2, ![n, 1]⟩ x h (ix2 k (0 : Fin 1)) = x (ix1 k) :=
  shapeCast_apply x h _ _ (by
    rw [Shape.rowMajor_val_two, Shape.rowMajor_val_one]
    show k.val = k.val * 1 + 0
    omega)

/-- A vector of length `n` cast to a row reads, at (0, k), the vector at k. -/
theorem shapeCast_row_apply {n : ℕ} (x : (⟨1, ![n]⟩ : Shape).Idx → EReal) (h : (⟨1, ![n]⟩ : Shape).ShapeCasts ⟨2, ![1, n]⟩)
    (k : Fin n) : shapeCast ⟨2, ![1, n]⟩ x h (ix2 (0 : Fin 1) k) = x (ix1 k) :=
  shapeCast_apply x h _ _ (by
    rw [Shape.rowMajor_val_two, Shape.rowMajor_val_one]
    show k.val = 0 * n + k.val
    omega)

/-! ## The blocks at a point, read at an element -/

/-- The prediction column block at point `t`, row `r`: prediction `512 · (t / 8) + r`. -/
theorem iblk0_apply (c : Dev nD) (t : Fin cfg0.N) (r : Fin 512) (h : 512 * (t.val / 8) + r.val < 8192) :
    (Gen.iblk m c 0 t : Vec Ideal S512x1 .f32) (ix2 r 0)
      = (m ((c : Thread nD τ).loc main_arg0) : S8192.Idx → EReal) (ix1 ⟨512 * (t.val / 8) + r.val, h⟩) := by
  have e : (Gen.iblk m c 0 t : Vec Ideal S512x1 .f32) (ix2 r 0)
      = (Gen.V m c main_v0 : S8192x1.Idx → EReal) (ix2 ⟨512 * (t.val / 8) + r.val, h⟩ 0) := by
    unfold Gen.iblk
    rw [View.read_apply]
    show Gen.V m c main_v0 _ = Gen.V m c main_v0 _
    refine congrArg (Gen.V m c main_v0) ?_
    funext a
    apply Fin.ext
    match a with
    | ⟨0, _⟩ => show win0_0.index t 0 * 512 + 1 * r.val = 512 * (t.val / 8) + r.val; rw [(idx_facts t).1.1]; omega
    | ⟨1, _⟩ => show win0_0.index t 1 * 1 + 1 * 0 = 0; rw [(idx_facts t).1.2]
  rw [e, V_main_v0]
  exact shapeCast_col_apply _ _ _

/-- The target column block at point `t`, row `r`: target `512 · (t / 8) + r`. -/
theorem iblk1_apply (c : Dev nD) (t : Fin cfg0.N) (r : Fin 512) (h : 512 * (t.val / 8) + r.val < 8192) :
    (Gen.iblk m c 1 t : Vec Ideal S512x1 .f32) (ix2 r 0)
      = (m ((c : Thread nD τ).loc main_arg1) : S8192.Idx → EReal) (ix1 ⟨512 * (t.val / 8) + r.val, h⟩) := by
  have e : (Gen.iblk m c 1 t : Vec Ideal S512x1 .f32) (ix2 r 0)
      = (Gen.V m c main_v1 : S8192x1.Idx → EReal) (ix2 ⟨512 * (t.val / 8) + r.val, h⟩ 0) := by
    unfold Gen.iblk
    rw [View.read_apply]
    show Gen.V m c main_v1 _ = Gen.V m c main_v1 _
    refine congrArg (Gen.V m c main_v1) ?_
    funext a
    apply Fin.ext
    match a with
    | ⟨0, _⟩ => show win0_1.index t 0 * 512 + 1 * r.val = 512 * (t.val / 8) + r.val; rw [(idx_facts t).2.1.1]; omega
    | ⟨1, _⟩ => show win0_1.index t 1 * 1 + 1 * 0 = 0; rw [(idx_facts t).2.1.2]
  rw [e, V_main_v1]
  exact shapeCast_col_apply _ _ _

/-- The prediction row block at point `t`, column `q`: prediction `1024 · (t % 8) + q`. -/
theorem iblk2_apply (c : Dev nD) (t : Fin cfg0.N) (q : Fin 1024) (h : 1024 * (t.val % 8) + q.val < 8192) :
    (Gen.iblk m c 2 t : Vec Ideal S1x1024 .f32) (ix2 0 q)
      = (m ((c : Thread nD τ).loc main_arg0) : S8192.Idx → EReal) (ix1 ⟨1024 * (t.val % 8) + q.val, h⟩) := by
  have e : (Gen.iblk m c 2 t : Vec Ideal S1x1024 .f32) (ix2 0 q)
      = (Gen.V m c main_v2 : S1x8192.Idx → EReal) (ix2 0 ⟨1024 * (t.val % 8) + q.val, h⟩) := by
    unfold Gen.iblk
    rw [View.read_apply]
    show Gen.V m c main_v2 _ = Gen.V m c main_v2 _
    refine congrArg (Gen.V m c main_v2) ?_
    funext a
    apply Fin.ext
    match a with
    | ⟨0, _⟩ => show win0_2.index t 0 * 1 + 1 * 0 = 0; rw [(idx_facts t).2.2.1.1]
    | ⟨1, _⟩ => show win0_2.index t 1 * 1024 + 1 * q.val = 1024 * (t.val % 8) + q.val; rw [(idx_facts t).2.2.1.2]; omega
  rw [e, V_main_v2]
  exact shapeCast_row_apply _ _ _

/-- The target row block at point `t`, column `q`: target `1024 · (t % 8) + q`. -/
theorem iblk3_apply (c : Dev nD) (t : Fin cfg0.N) (q : Fin 1024) (h : 1024 * (t.val % 8) + q.val < 8192) :
    (Gen.iblk m c 3 t : Vec Ideal S1x1024 .f32) (ix2 0 q)
      = (m ((c : Thread nD τ).loc main_arg1) : S8192.Idx → EReal) (ix1 ⟨1024 * (t.val % 8) + q.val, h⟩) := by
  have e : (Gen.iblk m c 3 t : Vec Ideal S1x1024 .f32) (ix2 0 q)
      = (Gen.V m c main_v3 : S1x8192.Idx → EReal) (ix2 0 ⟨1024 * (t.val % 8) + q.val, h⟩) := by
    unfold Gen.iblk
    rw [View.read_apply]
    show Gen.V m c main_v3 _ = Gen.V m c main_v3 _
    refine congrArg (Gen.V m c main_v3) ?_
    funext a
    apply Fin.ext
    match a with
    | ⟨0, _⟩ => show win0_3.index t 0 * 1 + 1 * 0 = 0; rw [(idx_facts t).2.2.2.1]
    | ⟨1, _⟩ => show win0_3.index t 1 * 1024 + 1 * q.val = 1024 * (t.val % 8) + q.val; rw [(idx_facts t).2.2.2.2]; omega
  rw [e, V_main_v3]
  exact shapeCast_row_apply _ _ _

end Cert.PairLoss.KRead

end
-- ==== Proof.KernelRead.lean ====
/-
  The kernel read at an element: its elementwise arithmetic, its final sums, and its input blocks as elements of the two
  argument arrays. This module only gathers the three.
-/
import proofs.«138254_j609885356367_2_alg».proof.Proof.KernelReadArith
import proofs.«138254_j609885356367_2_alg».proof.Proof.KernelReadSums
import proofs.«138254_j609885356367_2_alg».proof.Proof.KernelReadBlocks
-- ==== Proof.LibTileSums.lean ====
/-
  Finite sums over tiled index sets, in any commutative additive monoid (no distributivity, no cancellation):
  a sum over `Fin (n * b)` read as `n` blocks of `b` consecutive indices, the 8192 × 8192 square read as
  16 × 8 tiles of 512 × 1024, and a sparse 128 × 128 array whose only nonzero entries sit at rows divisible by 8
  of column 0.
-/
import Mathlib

open scoped BigOperators

namespace Cert.PairLoss.Sums

/-- The index `b * a + r` of entry `r` of block `a` lies below `n * b`. -/
theorem block_lt {n b : ℕ} (a : Fin n) (r : Fin b) : b * a.val + r.val < n * b := by
  have ha : a.val + 1 ≤ n := a.isLt
  have hr : r.val < b := r.isLt
  calc b * a.val + r.val < b * a.val + b := by omega
    _ = b * (a.val + 1) := by ring
    _ ≤ b * n := Nat.mul_le_mul_left b ha
    _ = n * b := Nat.mul_comm b n

/-- A sum over `Fin (n * b)` is the sum over the `n` blocks of the sum over the `b` entries of each block;
entry `r` of block `a` is the index `b * a + r`. -/
theorem sum_blocks {M : Type*} [AddCommMonoid M] {n b : ℕ} (g : Fin (n * b) → M) :
    ∑ a : Fin n, ∑ r : Fin b, g ⟨b * a.val + r.val, block_lt a r⟩ = ∑ i : Fin (n * b), g i := by
  rw [← Fintype.sum_prod_type' (f := fun (a : Fin n) (r : Fin b) => g ⟨b * a.val + r.val, block_lt a r⟩)]
  rw [← Equiv.sum_comp (finProdFinEquiv (m := n) (n := b)) g]
  refine Finset.sum_congr rfl ?_
  rintro ⟨a, r⟩ _
  congr 1
  apply Fin.ext
  simp [finProdFinEquiv, Nat.add_comm]

/-- The square `Fin 8192 × Fin 8192` summed tile by tile: 16 row tiles of 512 rows, 8 column tiles of 1024 columns,
with the column tiles innermost. -/
theorem sum_tiles {M : Type*} [AddCommMonoid M] (f : Fin 8192 → Fin 8192 → M) :
    ∑ a : Fin 16, ∑ r : Fin 512, ∑ q : Fin 1024, ∑ j : Fin 8,
        f ⟨512 * a.val + r.val, block_lt (n := 16) (b := 512) a r⟩
          ⟨1024 * j.val + q.val, block_lt (n := 8) (b := 1024) j q⟩
      = ∑ i : Fin 8192, ∑ j : Fin 8192, f i j := by
  have hcols : ∀ i : Fin 8192,
      ∑ q : Fin 1024, ∑ j : Fin 8, f i ⟨1024 * j.val + q.val, block_lt (n := 8) (b := 1024) j q⟩
        = ∑ j : Fin 8192, f i j := by
    intro i
    rw [Finset.sum_comm]
    exact sum_blocks (n := 8) (b := 1024) (fun j => f i j)
  simp only [hcols]
  exact sum_blocks (n := 16) (b := 512) (fun i => ∑ j : Fin 8192, f i j)

/-- A 128 × 128 array that carries `g a` at row `8 * a` of column 0 and zero everywhere else sums to `∑ a, g a`. -/
theorem sum_sparse {M : Type*} [AddCommMonoid M] (g : Fin 16 → M) :
    ∑ r : Fin 128, ∑ c : Fin 128,
        (if r.val % 8 = 0 ∧ c.val = 0 then g ⟨r.val / 8, by have := r.isLt; omega⟩ else 0)
      = ∑ a : Fin 16, g a := by
  have hrow : ∀ r : Fin 128,
      ∑ c : Fin 128, (if r.val % 8 = 0 ∧ c.val = 0 then g ⟨r.val / 8, by have := r.isLt; omega⟩ else 0)
        = if r.val % 8 = 0 then g ⟨r.val / 8, by have := r.isLt; omega⟩ else 0 := by
    intro r
    rw [Finset.sum_eq_single (0 : Fin 128)]
    · simp
    · intro c _ hc
      have : c.val ≠ 0 := fun h => hc (Fin.ext h)
      simp [this]
    · intro h; exact absurd (Finset.mem_univ _) h
  simp only [hrow]
  rw [← sum_blocks (n := 16) (b := 8)
    (fun r : Fin (16 * 8) => if r.val % 8 = 0 then g ⟨r.val / 8, by have := r.isLt; omega⟩ else 0)]
  refine Finset.sum_congr rfl ?_
  intro a _
  rw [Finset.sum_eq_single (0 : Fin 8)]
  · have h1 : (8 * a.val + (0 : Fin 8).val) % 8 = 0 := by simp
    have h2 : (8 * a.val + (0 : Fin 8).val) / 8 = a.val := by simp
    simp only [h1, if_true]
    congr 1
    exact Fin.ext h2
  · intro s _ hs
    have hs0 : s.val ≠ 0 := fun h => hs (Fin.ext h)
    have : ¬ ((8 * a.val + s.val) % 8 = 0) := by have := s.isLt; omega
    exact if_neg this
  · intro h; exact absurd (Finset.mem_univ _) h

end Cert.PairLoss.Sums
-- ==== Proof.SumsPairs.lean ====
/-
  The host's whole-array float sums read at the extended reals as the zero word plus the double (or single) sum over
  the coordinates, the same sum of the sparse array of per-tile partial sums as the sum over the whole square, and the
  zero and one words opened.
-/
import Idealize.ShloMosaic.PureOps.Ideal.Laws
import Idealize.ShloMosaic.Lib.ValueIdx
import Idealize.ShloMosaic.Lib.IdealHost
import proofs.«138254_j609885356367_2_alg».proof.Proof.Spec
import proofs.«138254_j609885356367_2_alg».proof.Proof.LibTileSums

noncomputable section

open scoped BigOperators

namespace Cert.PairLoss.Sums

open Idealize.ShloMosaic Idealize.ShloMosaic.ValueIdx

/-- The zero word is the extended real zero. -/
theorem zero_eq : Cert.PairLoss.zero = 0 := Ideal.ofBits_zero_f32

/-- The one word is the extended real one. -/
theorem one_eq : Cert.PairLoss.one = 1 := Ideal.ofBits_one_f32

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The host's float sum of a whole 128 × 128 array from the zero word, into a scalar: the zero word plus the double
sum over rows and columns. -/
theorem hostSum_128x128 (X : FVec Ideal (⟨2, ![128, 128]⟩ : Shape) .f32)
    (hred : (⟨2, ![128, 128]⟩ : Shape).ReducesTo [0, 1] (⟨0, ![]⟩ : Shape))
    (hS_ : 0 < (⟨0, ![]⟩ : Shape).numel) :
    Host.reduceAdd (F := Ideal) X (constant (F := Ideal) (⟨0, ![]⟩ : Shape) .f32 0x00000000#32) hred hS_
      = fun _ => Cert.PairLoss.zero + ∑ r : Fin 128, ∑ c : Fin 128, X (ix2 r c) := by
  funext j
  rw [hostReduceAdd_apply, Ideal.hostReduceAdd_total hred (fun b => b.elim0), sum_idx2]
  rfl

/-- The host's float sum of a whole length-8192 array from the zero word, into a scalar: the zero word plus the sum
over the coordinate. -/
theorem hostSum_8192 (X : FVec Ideal (⟨1, ![8192]⟩ : Shape) .f32)
    (hred : (⟨1, ![8192]⟩ : Shape).ReducesTo [0] (⟨0, ![]⟩ : Shape))
    (hS_ : 0 < (⟨0, ![]⟩ : Shape).numel) :
    Host.reduceAdd (F := Ideal) X (constant (F := Ideal) (⟨0, ![]⟩ : Shape) .f32 0x00000000#32) hred hS_
      = fun _ => Cert.PairLoss.zero + ∑ k : Fin 8192, X (ix1 k) := by
  funext j
  rw [hostReduceAdd_apply, Ideal.hostReduceAdd_total hred (fun b => b.elim0), sum_idx1]
  rfl

/-- The host's sum of a 128 × 128 array that carries `g a` at row `8 * a` of column 0 and zero elsewhere. -/
theorem hostSum_sparse (g : Fin 16 → EReal) (X : FVec Ideal (⟨2, ![128, 128]⟩ : Shape) .f32)
    (hX : ∀ (r c : Fin 128), X (ix2 r c)
      = if r.val % 8 = 0 ∧ c.val = 0 then g ⟨r.val / 8, by have := r.isLt; omega⟩ else 0)
    (hred : (⟨2, ![128, 128]⟩ : Shape).ReducesTo [0, 1] (⟨0, ![]⟩ : Shape))
    (hS_ : 0 < (⟨0, ![]⟩ : Shape).numel) :
    Host.reduceAdd (F := Ideal) X (constant (F := Ideal) (⟨0, ![]⟩ : Shape) .f32 0x00000000#32) hred hS_
      = fun _ => Cert.PairLoss.zero + ∑ a : Fin 16, g a := by
  rw [hostSum_128x128]
  simp only [hX]
  rw [sum_sparse]

/-- The host's sum of the 128 × 128 array of per-row-tile partial sums is the zero word plus the sum over the whole
8192 × 8192 square. -/
theorem hostSum_tiles (f : Fin 8192 → Fin 8192 → EReal) (X : FVec Ideal (⟨2, ![128, 128]⟩ : Shape) .f32)
    (hX : ∀ (r c : Fin 128), X (ix2 r c)
      = if r.val % 8 = 0 ∧ c.val = 0 then
          ∑ p : Fin 512, ∑ q : Fin 1024, ∑ j : Fin 8,
            f ⟨512 * (r.val / 8) + p.val, by have := r.isLt; have := p.isLt; omega⟩
              ⟨1024 * j.val + q.val, block_lt (n := 8) (b := 1024) j q⟩
        else 0)
    (hred : (⟨2, ![128, 128]⟩ : Shape).ReducesTo [0, 1] (⟨0, ![]⟩ : Shape))
    (hS_ : 0 < (⟨0, ![]⟩ : Shape).numel) :
    Host.reduceAdd (F := Ideal) X (constant (F := Ideal) (⟨0, ![]⟩ : Shape) .f32 0x00000000#32) hred hS_
      = fun _ => Cert.PairLoss.zero + ∑ i : Fin 8192, ∑ j : Fin 8192, f i j := by
  rw [hostSum_sparse (fun a => ∑ p : Fin 512, ∑ q : Fin 1024, ∑ j : Fin 8,
            f ⟨512 * a.val + p.val, block_lt (n := 16) (b := 512) a p⟩
              ⟨1024 * j.val + q.val, block_lt (n := 8) (b := 1024) j q⟩) X hX hred hS_]
  rw [sum_tiles]

end Cert.PairLoss.Sums

end
-- ==== Proof.KIClosed.lean ====
/-
  WHAT EACH POINT LEAVES, IN CLOSED FORM, over the extended reals.

  Point `n` of the 16 × 8 grid is step `n % 8` of row tile `n / 8`. Row tile `a` owns the rows `512 · a + r`, step `j` the
  columns `1024 · j + q`. At a first step the two accumulators restart from zero; every step adds, at (r, q), the hinge
  (the count) of the pair (row `512 · a + r`, column `1024 · j + q`). So after step `k` the accumulators hold at (r, q)
  the sum over the steps `j ≤ k` of those terms (by induction on the step), and after the last step (`k = 7`) nothing is
  cut off. The output blocks are zeroed at the first step and untouched by the middle steps; the last step writes into
  entry (0, 0) the sum of the updated accumulator over its 512 × 1024 entries, which is the sum over the tile's rows, the
  1024 positions inside a step and the 8 steps; every other entry stays zero.
-/
import proofs.«138254_j609885356367_2_alg».proof.Proof.KIValues
import proofs.«138254_j609885356367_2_alg».proof.Proof.KernelRead
import proofs.«138254_j609885356367_2_alg».proof.Proof.Spec
import proofs.«138254_j609885356367_2_alg».proof.Proof.LibTileSums
import proofs.«138254_j609885356367_2_alg».proof.Proof.SumsPairs

set_option maxRecDepth 16384

noncomputable section

open scoped BigOperators

namespace Cert.PairLoss.KClosed

open Idealize.ShloMosaic Idealize.ShloMosaic.ValueIdx Idealize.ShloMosaic.TcCoe Idealize.SL.Sem
open Cert.KernelIdeal Cert.PairLoss

variable (m : (ℓ : Loc nD τ sig) → Buf (Elt Ideal) ℓ)

/-- The predictions, as a function of the position. -/
abbrev P (c : Dev nD) : Fin 8192 → EReal :=
  fun k => (m ((c : Thread nD τ).loc main_arg0) : S8192.Idx → EReal) (ix1 k)
/-- The targets, as a function of the position. -/
abbrev T (c : Dev nD) : Fin 8192 → EReal :=
  fun k => (m ((c : Thread nD τ).loc main_arg1) : S8192.Idx → EReal) (ix1 k)

/-! ## The four contents after a point, as the payloads of the point's blocks -/

/-- After a first step the hinge accumulator is this step's terms over zeros. -/
theorem acc_first (c : Dev nD) (n : ℕ) (hn : n < cfg0.N) (h0 : n % 8 = 0) :
    (Body.outsAt (F := Ideal) m c n hn).2.2.1
      = Gen.k0_pay8 (Gen.iblk m c 1 ⟨n, hn⟩) (Gen.iblk m c 3 ⟨n, hn⟩) (Gen.iblk m c 0 ⟨n, hn⟩) (Gen.iblk m c 2 ⟨n, hn⟩)
          (Gen.k0_pay3 (F := Ideal)) := by
  rw [Body.outsAt_first m c n hn h0]
  unfold Body.firstVals
  dsimp only
  unfold Body.firstAt
  exact Body.first_S0 ..

/-- After a first step the count accumulator is this step's terms over zeros. -/
theorem cnt_first (c : Dev nD) (n : ℕ) (hn : n < cfg0.N) (h0 : n % 8 = 0) :
    (Body.outsAt (F := Ideal) m c n hn).2.2.2
      = Gen.k0_pay9 (Gen.iblk m c 1 ⟨n, hn⟩) (Gen.iblk m c 3 ⟨n, hn⟩) (Gen.k0_pay4 (F := Ideal)) := by
  rw [Body.outsAt_first m c n hn h0]
  unfold Body.firstVals
  dsimp only
  unfold Body.firstAt
  exact Body.first_S1 ..

/-- After any later step the hinge accumulator is this step's terms over what the step before left. -/
theorem acc_later (c : Dev nD) (n : ℕ) (hn : n < cfg0.N) (h0 : ¬n % 8 = 0) :
    (Body.outsAt (F := Ideal) m c n hn).2.2.1
      = Gen.k0_pay8 (Gen.iblk m c 1 ⟨n, hn⟩) (Gen.iblk m c 3 ⟨n, hn⟩) (Gen.iblk m c 0 ⟨n, hn⟩) (Gen.iblk m c 2 ⟨n, hn⟩)
          (Body.outsAt (F := Ideal) m c (n - 1) (Nat.lt_of_le_of_lt (Nat.sub_le _ _) hn)).2.2.1 := by
  by_cases h1 : n % 8 = 7
  · rw [Body.outsAt_last m c n hn h1]
    unfold Body.lastVals
    dsimp only
    unfold Body.lastAt
    exact Body.last_S0 ..
  · rw [Body.outsAt_middle m c n hn h0 h1]
    unfold Body.middleVals
    dsimp only
    unfold Body.middleAt
    exact Body.middle_S0 ..

/-- After any later step the count accumulator is this step's terms over what the step before left. -/
theorem cnt_later (c : Dev nD) (n : ℕ) (hn : n < cfg0.N) (h0 : ¬n % 8 = 0) :
    (Body.outsAt (F := Ideal) m c n hn).2.2.2
      = Gen.k0_pay9 (Gen.iblk m c 1 ⟨n, hn⟩) (Gen.iblk m c 3 ⟨n, hn⟩)
          (Body.outsAt (F := Ideal) m c (n - 1) (Nat.lt_of_le_of_lt (Nat.sub_le _ _) hn)).2.2.2 := by
  by_cases h1 : n % 8 = 7
  · rw [Body.outsAt_last m c n hn h1]
    unfold Body.lastVals
    dsimp only
    unfold Body.lastAt
    exact Body.last_S1 ..
  · rw [Body.outsAt_middle m c n hn h0 h1]
    unfold Body.middleVals
    dsimp only
    unfold Body.middleAt
    exact Body.middle_S1 ..

/-- After a first step the first output block is zeros. -/
theorem out4_first (c : Dev nD) (n : ℕ) (hn : n < cfg0.N) (h0 : n % 8 = 0) :
    (Body.outsAt (F := Ideal) m c n hn).1 = Gen.k0_pay5 (F := Ideal) := by
  rw [Body.outsAt_first m c n hn h0]
  unfold Body.firstVals
  dsimp only
  unfold Body.firstAt
  exact Body.first_O4 ..

/-- After a first step the second output block is zeros. -/
theorem out5_first (c : Dev nD) (n : ℕ) (hn : n < cfg0.N) (h0 : n % 8 = 0) :
    (Body.outsAt (F := Ideal) m c n hn).2.1 = Gen.k0_pay6 (F := Ideal) := by
  rw [Body.outsAt_first m c n hn h0]
  unfold Body.firstVals
  dsimp only
  unfold Body.firstAt
  exact Body.first_O5 ..

/-- A middle step hands the first output block on. -/
theorem out4_middle (c : Dev nD) (n : ℕ) (hn : n < cfg0.N) (h0 : ¬n % 8 = 0) (h1 : ¬n % 8 = 7) :
    (Body.outsAt (F := Ideal) m c n hn).1
      = (Body.outsAt (F := Ideal) m c (n - 1) (Nat.lt_of_le_of_lt (Nat.sub_le _ _) hn)).1 := by
  rw [Body.outsAt_middle m c n hn h0 h1]
  exact Body.middleVals_fst ..

/-- A middle step hands the second output block on. -/
theorem out5_middle (c : Dev nD) (n : ℕ) (hn : n < cfg0.N) (h0 : ¬n % 8 = 0) (h1 : ¬n % 8 = 7) :
    (Body.outsAt (F := Ideal) m c n hn).2.1
      = (Body.outsAt (F := Ideal) m c (n - 1) (Nat.lt_of_le_of_lt (Nat.sub_le _ _) hn)).2.1 := by
  rw [Body.outsAt_middle m c n hn h0 h1]
  exact Body.middleVals_snd ..

/-- A last step overwrites entry (0, 0) of the first output block with the sum of the updated hinge accumulator. -/
theorem out4_last (c : Dev nD) (n : ℕ) (hn : n < cfg0.N) (h1 : n % 8 = 7) (y : S8x128.Idx) :
    (Body.outsAt (F := Ideal) m c n hn).1 y
      = if y = ix2 (0 : Fin 8) (0 : Fin 128) then
          Gen.k0_pay1 (Gen.k0_pay8 (Gen.iblk m c 1 ⟨n, hn⟩) (Gen.iblk m c 3 ⟨n, hn⟩) (Gen.iblk m c 0 ⟨n, hn⟩) (Gen.iblk m c 2 ⟨n, hn⟩)
            (Body.outsAt (F := Ideal) m c (n - 1) (Nat.lt_of_le_of_lt (Nat.sub_le _ _) hn)).2.2.1) (ix2 (0 : Fin 1) (0 : Fin 1))
        else (Body.outsAt (F := Ideal) m c (n - 1) (Nat.lt_of_le_of_lt (Nat.sub_le _ _) hn)).1 y := by
  rw [Body.outsAt_last m c n hn h1]
  unfold Body.lastVals
  dsimp only
  unfold Body.lastAt
  exact Body.last_O4 ..

/-- A last step overwrites entry (0, 0) of the second output block with the sum of the updated count accumulator. -/
theorem out5_last (c : Dev nD) (n : ℕ) (hn : n < cfg0.N) (h1 : n % 8 = 7) (y : S8x128.Idx) :
    (Body.outsAt (F := Ideal) m c n hn).2.1 y
      = if y = ix2 (0 : Fin 8) (0 : Fin 128) then
          Gen.k0_pay2 (Gen.k0_pay9 (Gen.iblk m c 1 ⟨n, hn⟩) (Gen.iblk m c 3 ⟨n, hn⟩)
            (Body.outsAt (F := Ideal) m c (n - 1) (Nat.lt_of_le_of_lt (Nat.sub_le _ _) hn)).2.2.2) (ix2 (0 : Fin 1) (0 : Fin 1))
        else (Body.outsAt (F := Ideal) m c (n - 1) (Nat.lt_of_le_of_lt (Nat.sub_le _ _) hn)).2.1 y := by
  rw [Body.outsAt_last m c n hn h1]
  unfold Body.lastVals
  dsimp only
  unfold Body.lastAt
  exact Body.last_O5 ..

/-! ## One step at an element -/

/-- The hinge accumulator's step at (r, q) of point `n`: the pair (row `512 · (n / 8) + r`, column
    `1024 · (n % 8) + q`) is added. -/
theorem step_hinge (c : Dev nD) (n : ℕ) (hn : n < cfg0.N) (acc : Vec Ideal S512x1024 .f32) (r : Fin 512) (q : Fin 1024)
    (i j : Fin 8192) (hi : i.val = 512 * (n / 8) + r.val) (hj : j.val = 1024 * (n % 8) + q.val) :
    Gen.k0_pay8 (Gen.iblk m c 1 ⟨n, hn⟩) (Gen.iblk m c 3 ⟨n, hn⟩) (Gen.iblk m c 0 ⟨n, hn⟩) (Gen.iblk m c 2 ⟨n, hn⟩) acc (ix2 r q)
      = acc (ix2 r q) + hingeAt (P m c) (T m c) i j := by
  have ei : i = ⟨512 * (n / 8) + r.val, KRead.col_lt ⟨n, hn⟩ r⟩ := Fin.ext hi
  have ej : j = ⟨1024 * (n % 8) + q.val, KRead.row_lt ⟨n, hn⟩ q⟩ := Fin.ext hj
  subst ei ej
  refine (KRead.pay8_apply (Gen.iblk m c 1 ⟨n, hn⟩) (Gen.iblk m c 3 ⟨n, hn⟩) (Gen.iblk m c 0 ⟨n, hn⟩) (Gen.iblk m c 2 ⟨n, hn⟩) acc r q).trans ?_
  have h0 := KRead.iblk0_apply m c ⟨n, hn⟩ r (KRead.col_lt ⟨n, hn⟩ r)
  have h1 := KRead.iblk1_apply m c ⟨n, hn⟩ r (KRead.col_lt ⟨n, hn⟩ r)
  have h2 := KRead.iblk2_apply m c ⟨n, hn⟩ q (KRead.row_lt ⟨n, hn⟩ q)
  have h3 := KRead.iblk3_apply m c ⟨n, hn⟩ q (KRead.row_lt ⟨n, hn⟩ q)
  rw [h0, h1, h2, h3]
  rfl

/-- The count accumulator's step at (r, q) of point `n`. -/
theorem step_count (c : Dev nD) (n : ℕ) (hn : n < cfg0.N) (acc : Vec Ideal S512x1024 .f32) (r : Fin 512) (q : Fin 1024)
    (i j : Fin 8192) (hi : i.val = 512 * (n / 8) + r.val) (hj : j.val = 1024 * (n % 8) + q.val) :
    Gen.k0_pay9 (Gen.iblk m c 1 ⟨n, hn⟩) (Gen.iblk m c 3 ⟨n, hn⟩) acc (ix2 r q)
      = acc (ix2 r q) + countAt (T m c) i j := by
  have ei : i = ⟨512 * (n / 8) + r.val, KRead.col_lt ⟨n, hn⟩ r⟩ := Fin.ext hi
  have ej : j = ⟨1024 * (n % 8) + q.val, KRead.row_lt ⟨n, hn⟩ q⟩ := Fin.ext hj
  subst ei ej
  refine (KRead.pay9_apply (Gen.iblk m c 1 ⟨n, hn⟩) (Gen.iblk m c 3 ⟨n, hn⟩) acc r q).trans ?_
  have h1 := KRead.iblk1_apply m c ⟨n, hn⟩ r (KRead.col_lt ⟨n, hn⟩ r)
  have h3 := KRead.iblk3_apply m c ⟨n, hn⟩ q (KRead.row_lt ⟨n, hn⟩ q)
  rw [h1, h3]
  rfl

/-! ## Sums over the eight steps, cut off at a step -/

/-- Cut off at step 0, only the first term is left. -/
theorem sum_le_zero {M : Type*} [AddCommMonoid M] (f : Fin 8 → M) :
    ∑ j : Fin 8, (if j.val ≤ 0 then f j else 0) = f ⟨0, by decide⟩ := by
  rw [Finset.sum_eq_single (⟨0, by decide⟩ : Fin 8)]
  · exact if_pos (le_refl _)
  · intro j _ hj
    have : ¬ j.val ≤ 0 := fun h => hj (Fin.ext (by show j.val = 0; omega))
    exact if_neg this
  · intro h; exact absurd (Finset.mem_univ _) h

/-- Cutting off one step later adds that step's term. -/
theorem sum_le_succ {M : Type*} [AddCommMonoid M] (f : Fin 8 → M) (k : ℕ) (hk : k + 1 < 8) :
    ∑ j : Fin 8, (if j.val ≤ k + 1 then f j else 0)
      = (∑ j : Fin 8, (if j.val ≤ k then f j else 0)) + f ⟨k + 1, hk⟩ := by
  have split : ∀ j : Fin 8, (if j.val ≤ k + 1 then f j else 0)
      = (if j.val ≤ k then f j else 0) + (if j = ⟨k + 1, hk⟩ then f j else 0) := by
    intro j
    by_cases h1 : j.val ≤ k
    · have h2 : j ≠ ⟨k + 1, hk⟩ := fun h => by
        have h3 : j.val = k + 1 := congrArg Fin.val h
        omega
      rw [if_pos h1, if_pos (by omega), if_neg h2, add_zero]
    · by_cases h2 : j = ⟨k + 1, hk⟩
      · have h3 : j.val ≤ k + 1 := le_of_eq (congrArg Fin.val h2)
        rw [if_pos h3, if_neg h1, if_pos h2, zero_add]
      · have h3 : ¬ j.val ≤ k + 1 := fun h => h2 (Fin.ext (by show j.val = k + 1; omega))
        rw [if_neg h3, if_neg h1, if_neg h2, add_zero]
  rw [Finset.sum_congr rfl (fun j _ => split j), Finset.sum_add_distrib, Finset.sum_ite_eq', if_pos (Finset.mem_univ _)]

/-- Cut off at the last step, nothing is cut off. -/
theorem sum_le_all {M : Type*} [AddCommMonoid M] (f : Fin 8 → M) (k : ℕ) (hk : k = 7) :
    ∑ j : Fin 8, (if j.val ≤ k then f j else 0) = ∑ j : Fin 8, f j :=
  Finset.sum_congr rfl fun j _ => if_pos (by have := j.isLt; omega)

/-! ## The accumulators in closed form -/

/-- After step `k` of row tile `a` the hinge accumulator holds, at (r, q), the hinges of row `512 · a + r` against the
    columns `1024 · j + q` of the steps `j ≤ k`. -/
theorem acc_aux (c : Dev nD) (a : ℕ) : ∀ (k : ℕ), k < 8 → ∀ (n : ℕ) (hn : n < cfg0.N), n = 8 * a + k →
    ∀ (r : Fin 512) (q : Fin 1024) (hrow : 512 * a + r.val < 8192),
    (Body.outsAt (F := Ideal) m c n hn).2.2.1 (ix2 r q)
      = ∑ j : Fin 8, (if j.val ≤ k then
          hingeAt (P m c) (T m c) ⟨512 * a + r.val, hrow⟩ ⟨1024 * j.val + q.val, Sums.block_lt (n := 8) (b := 1024) j q⟩
        else 0) := by
  intro k
  induction k with
  | zero =>
    intro _ n hn hnk r q hrow
    have h0 : n % 8 = 0 := by omega
    refine (congrFun (acc_first m c n hn h0) (ix2 r q)).trans ?_
    refine (step_hinge m c n hn _ r q ⟨512 * a + r.val, hrow⟩
      ⟨1024 * (⟨0, by decide⟩ : Fin 8).val + q.val, Sums.block_lt (n := 8) (b := 1024) ⟨0, by decide⟩ q⟩
      (by show 512 * a + r.val = 512 * (n / 8) + r.val; omega)
      (by show 1024 * 0 + q.val = 1024 * (n % 8) + q.val; omega)).trans ?_
    rw [KRead.pay3_apply, zero_add]
    exact (sum_le_zero (fun j : Fin 8 => hingeAt (P m c) (T m c) ⟨512 * a + r.val, hrow⟩
      ⟨1024 * j.val + q.val, Sums.block_lt (n := 8) (b := 1024) j q⟩)).symm
  | succ k ih =>
    intro hk n hn hnk r q hrow
    have h0 : ¬n % 8 = 0 := by omega
    refine (congrFun (acc_later m c n hn h0) (ix2 r q)).trans ?_
    refine (step_hinge m c n hn _ r q ⟨512 * a + r.val, hrow⟩
      ⟨1024 * (⟨k + 1, hk⟩ : Fin 8).val + q.val, Sums.block_lt (n := 8) (b := 1024) ⟨k + 1, hk⟩ q⟩
      (by show 512 * a + r.val = 512 * (n / 8) + r.val; omega)
      (by show 1024 * (k + 1) + q.val = 1024 * (n % 8) + q.val; omega)).trans ?_
    rw [ih (by omega) (n - 1) (Nat.lt_of_le_of_lt (Nat.sub_le _ _) hn) (by omega) r q hrow]
    exact (sum_le_succ (fun j : Fin 8 => hingeAt (P m c) (T m c) ⟨512 * a + r.val, hrow⟩
      ⟨1024 * j.val + q.val, Sums.block_lt (n := 8) (b := 1024) j q⟩) k hk).symm

/-- The same for the count accumulator. -/
theorem cnt_aux (c : Dev nD) (a : ℕ) : ∀ (k : ℕ), k < 8 → ∀ (n : ℕ) (hn : n < cfg0.N), n = 8 * a + k →
    ∀ (r : Fin 512) (q : Fin 1024) (hrow : 512 * a + r.val < 8192),
    (Body.outsAt (F := Ideal) m c n hn).2.2.2 (ix2 r q)
      = ∑ j : Fin 8, (if j.val ≤ k then
          countAt (T m c) ⟨512 * a + r.val, hrow⟩ ⟨1024 * j.val + q.val, Sums.block_lt (n := 8) (b := 1024) j q⟩
        else 0) := by
  intro k
  induction k with
  | zero =>
    intro _ n hn hnk r q hrow
    have h0 : n % 8 = 0 := by omega
    refine (congrFun (cnt_first m c n hn h0) (ix2 r q)).trans ?_
    refine (step_count m c n hn _ r q ⟨512 * a + r.val, hrow⟩
      ⟨1024 * (⟨0, by decide⟩ : Fin 8).val + q.val, Sums.block_lt (n := 8) (b := 1024) ⟨0, by decide⟩ q⟩
      (by show 512 * a + r.val = 512 * (n / 8) + r.val; omega)
      (by show 1024 * 0 + q.val = 1024 * (n % 8) + q.val; omega)).trans ?_
    rw [KRead.pay4_apply, zero_add]
    exact (sum_le_zero (fun j : Fin 8 => countAt (T m c) ⟨512 * a + r.val, hrow⟩
      ⟨1024 * j.val + q.val, Sums.block_lt (n := 8) (b := 1024) j q⟩)).symm
  | succ k ih =>
    intro hk n hn hnk r q hrow
    have h0 : ¬n % 8 = 0 := by omega
    refine (congrFun (cnt_later m c n hn h0) (ix2 r q)).trans ?_
    refine (step_count m c n hn _ r q ⟨512 * a + r.val, hrow⟩
      ⟨1024 * (⟨k + 1, hk⟩ : Fin 8).val + q.val, Sums.block_lt (n := 8) (b := 1024) ⟨k + 1, hk⟩ q⟩
      (by show 512 * a + r.val = 512 * (n / 8) + r.val; omega)
      (by show 1024 * (k + 1) + q.val = 1024 * (n % 8) + q.val; omega)).trans ?_
    rw [ih (by omega) (n - 1) (Nat.lt_of_le_of_lt (Nat.sub_le _ _) hn) (by omega) r q hrow]
    exact (sum_le_succ (fun j : Fin 8 => countAt (T m c) ⟨512 * a + r.val, hrow⟩
      ⟨1024 * j.val + q.val, Sums.block_lt (n := 8) (b := 1024) j q⟩) k hk).symm

/-- THE HINGE ACCUMULATOR after point `n` (step `n % 8` of row tile `n / 8`), at (r, q). -/
theorem acc_closed (c : Dev nD) (n : ℕ) (hn : n < cfg0.N) (r : Fin 512) (q : Fin 1024) :
    (Body.outsAt (F := Ideal) m c n hn).2.2.1 (ix2 r q)
      = ∑ j : Fin 8, (if j.val ≤ n % 8 then
          hingeAt (P m c) (T m c) ⟨512 * (n / 8) + r.val, KRead.col_lt ⟨n, hn⟩ r⟩
            ⟨1024 * j.val + q.val, Sums.block_lt (n := 8) (b := 1024) j q⟩
        else 0) :=
  acc_aux m c (n / 8) (n % 8) (Nat.mod_lt _ (by decide)) n hn (Nat.div_add_mod n 8).symm r q (KRead.col_lt ⟨n, hn⟩ r)

/-- THE COUNT ACCUMULATOR after point `n`, at (r, q). -/
theorem cnt_closed (c : Dev nD) (n : ℕ) (hn : n < cfg0.N) (r : Fin 512) (q : Fin 1024) :
    (Body.outsAt (F := Ideal) m c n hn).2.2.2 (ix2 r q)
      = ∑ j : Fin 8, (if j.val ≤ n % 8 then
          countAt (T m c) ⟨512 * (n / 8) + r.val, KRead.col_lt ⟨n, hn⟩ r⟩
            ⟨1024 * j.val + q.val, Sums.block_lt (n := 8) (b := 1024) j q⟩
        else 0) :=
  cnt_aux m c (n / 8) (n % 8) (Nat.mod_lt _ (by decide)) n hn (Nat.div_add_mod n 8).symm r q (KRead.col_lt ⟨n, hn⟩ r)

/-! ## The output blocks in closed form -/

/-- Before a row tile's last step both output blocks are zeros. -/
theorem out_quiet (c : Dev nD) (a : ℕ) : ∀ (k : ℕ), k < 7 → ∀ (n : ℕ) (hn : n < cfg0.N), n = 8 * a + k →
    ∀ y : S8x128.Idx,
      (Body.outsAt (F := Ideal) m c n hn).1 y = 0 ∧ (Body.outsAt (F := Ideal) m c n hn).2.1 y = 0 := by
  intro k
  induction k with
  | zero =>
    intro _ n hn hnk y
    have h0 : n % 8 = 0 := by omega
    exact ⟨(congrFun (out4_first m c n hn h0) y).trans (KRead.pay5_apply y),
      (congrFun (out5_first m c n hn h0) y).trans (KRead.pay6_apply y)⟩
  | succ k ih =>
    intro hk n hn hnk y
    have h0 : ¬n % 8 = 0 := by omega
    have h1 : ¬n % 8 = 7 := by omega
    have hp := ih (by omega) (n - 1) (Nat.lt_of_le_of_lt (Nat.sub_le _ _) hn) (by omega) y
    exact ⟨(congrFun (out4_middle m c n hn h0 h1) y).trans hp.1, (congrFun (out5_middle m c n hn h0 h1) y).trans hp.2⟩

/-- THE FIRST OUTPUT BLOCK after point `n`: zeros, but for entry (0, 0) after a row tile's last step, which holds the
    hinges of the tile's 512 rows against all 8192 columns. -/
theorem out4_closed (c : Dev nD) (n : ℕ) (hn : n < cfg0.N) (y : S8x128.Idx) :
    (Body.outsAt (F := Ideal) m c n hn).1 y
      = if n % 8 = 7 ∧ y = ix2 (0 : Fin 8) (0 : Fin 128) then
          ∑ p : Fin 512, ∑ q : Fin 1024, ∑ j : Fin 8,
            hingeAt (P m c) (T m c) ⟨512 * (n / 8) + p.val, KRead.col_lt ⟨n, hn⟩ p⟩
              ⟨1024 * j.val + q.val, Sums.block_lt (n := 8) (b := 1024) j q⟩
        else 0 := by
  by_cases h1 : n % 8 = 7
  · have h0 : ¬n % 8 = 0 := by omega
    rw [out4_last m c n hn h1 y, ← acc_later m c n hn h0]
    by_cases hy : y = ix2 (0 : Fin 8) (0 : Fin 128)
    · rw [if_pos hy, if_pos ⟨h1, hy⟩, KRead.pay1_apply]
      refine Finset.sum_congr rfl fun p _ => Finset.sum_congr rfl fun q _ => ?_
      rw [acc_closed m c n hn p q]
      exact sum_le_all _ _ h1
    · rw [if_neg hy, if_neg (fun h => hy h.2)]
      exact (out_quiet m c (n / 8) 6 (by decide) (n - 1) _ (by omega) y).1
  · rw [if_neg (fun h => h1 h.1)]
    exact (out_quiet m c (n / 8) (n % 8) (by omega) n hn (Nat.div_add_mod n 8).symm y).1

/-- THE SECOND OUTPUT BLOCK after point `n`: zeros, but for entry (0, 0) after a row tile's last step, which holds the
    number of ranked pairs of the tile's 512 rows against all 8192 columns. -/
theorem out5_closed (c : Dev nD) (n : ℕ) (hn : n < cfg0.N) (y : S8x128.Idx) :
    (Body.outsAt (F := Ideal) m c n hn).2.1 y
      = if n % 8 = 7 ∧ y = ix2 (0 : Fin 8) (0 : Fin 128) then
          ∑ p : Fin 512, ∑ q : Fin 1024, ∑ j : Fin 8,
            countAt (T m c) ⟨512 * (n / 8) + p.val, KRead.col_lt ⟨n, hn⟩ p⟩
              ⟨1024 * j.val + q.val, Sums.block_lt (n := 8) (b := 1024) j q⟩
        else 0 := by
  by_cases h1 : n % 8 = 7
  · have h0 : ¬n % 8 = 0 := by omega
    rw [out5_last m c n hn h1 y, ← cnt_later m c n hn h0]
    by_cases hy : y = ix2 (0 : Fin 8) (0 : Fin 128)
    · rw [if_pos hy, if_pos ⟨h1, hy⟩, KRead.pay2_apply]
      refine Finset.sum_congr rfl fun p _ => Finset.sum_congr rfl fun q _ => ?_
      rw [cnt_closed m c n hn p q]
      exact sum_le_all _ _ h1
    · rw [if_neg hy, if_neg (fun h => hy h.2)]
      exact (out_quiet m c (n / 8) 6 (by decide) (n - 1) _ (by omega) y).2
  · rw [if_neg (fun h => h1 h.1)]
    exact (out_quiet m c (n / 8) (n % 8) (by omega) n hn (Nat.div_add_mod n 8).symm y).2

end Cert.PairLoss.KClosed

end
-- ==== Proof.KIFinal.lean ====
/-
  FROM THE OUTPUT BLOCKS TO THE RESULT ARRAYS. Each of the two [128, 128] result arrays is written back in 16 blocks of
  [8, 128], block `t / 8` at the last step `t` of each row tile, and the 16 blocks tile the array. So if what every
  last step leaves in the block's buffer is the block of one array `G`, entry by entry, the result array ends holding
  `G`.
-/
import proofs.«138254_j609885356367_2_alg».proof.Proof.KIData
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-- Row `8 * (t / 8) + a` of the array, for a point `t` of the grid and a row `a` of a block, is below 128. -/
theorem row_lt (t : Fin cfg0.N) (a : Fin 8) : 8 * (t.val / 8) + a.val < 128 := by
  have h1 := t.isLt
  have h2 : cfg0.N = 128 := N_0
  have h3 := a.isLt
  omega

/-- Output window 4's block index at point `t` is `(t / 8, 0)`. -/
theorem idx_facts4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What a last step `t` writes back of output window 4 is block `t / 8` of `G`, when the block's buffer holds `G`'s
    entries there. -/
theorem flushed4_eq (c : Dev nD) (G : Vec F S128x128 .f32)
    (hG : ∀ (t : Fin cfg0.N), t.val % 8 = 7 → ∀ (a : Fin 8) (b : Fin 128),
      (outsAt m c t.val t.isLt).1 (ix2 a b) = G (ix2 (⟨8 * (t.val / 8) + a.val, row_lt t a⟩ : Fin 128) b))
    (t : Fin cfg0.N) (hf : (cfg0.win 4).flush t = true) :
    (dats m 0 c).flushed 4 t = ((cfg0.win 4).blk t).view.read (Elt F) (G : Buf (Elt F) ((c : Thread nD τ).loc main_v4_0)) := by
  show (cfg0.win 4).cut (grid0.coords t) ((dats m 0 c).after 4 t) = _
  rw [after4]
  funext j
  have ht := (flush0_4 t).mp hf
  obtain ⟨e0, e1⟩ := idx_facts4 t
  have hj0 : (j 0).val < 8 := (j 0).isLt
  have hj1 : (j 1).val < 128 := (j 1).isLt
  have h1 := hG t ht ⟨(j 0).val, hj0⟩ ⟨(j 1).val, hj1⟩
  show (outsAt m c t.val t.isLt).1 ((cfg0.win 4).xinj (grid0.coords t) j) = G (((cfg0.win 4).blk t).view.emb j)
  have hx : (cfg0.win 4).xinj (grid0.coords t) j = ix2 (⟨(j 0).val, hj0⟩ : Fin 8) (⟨(j 1).val, hj1⟩ : Fin 128) := by
    funext a
    match a with
    | ⟨0, _⟩ => rfl
    | ⟨1, _⟩ => rfl
  have hy : ((cfg0.win 4).blk t).view.emb j
      = ix2 (⟨8 * (t.val / 8) + (j 0).val, row_lt t ⟨(j 0).val, hj0⟩⟩ : Fin 128) (⟨(j 1).val, hj1⟩ : Fin 128) := by
    funext a
    apply Fin.ext
    match a with
    | ⟨0, _⟩ => show win0_4.index t (0 : Fin 2) * 8 + 1 * (j 0).val = 8 * (t.val / 8) + (j 0).val; omega
    | ⟨1, _⟩ => show win0_4.index t (1 : Fin 2) * 128 + 1 * (j 1).val = (j 1).val; omega
  rw [hx, hy]
  exact h1

/-- An index of the array is in point `t`'s block of output window 4 iff each coordinate is in the block's range. -/
theorem mem_blk4 (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v4_0).slice (win0_4.rect t)).set ↔ _
  rw [View.set_slice_whole, Rect.mem_set_unit]
  exact Iff.rfl

/-- Every index of the array is in the block some last step writes back: row `r` is in the block of point
    `8 * (r / 8) + 7`. -/
theorem cover4 (i : S128x128.Idx) :
    ∃ t : Fin cfg0.N, (cfg0.win 4).flush t = true ∧ i ∈ ((cfg0.win 4).blk t).view.set := by
  have hN : cfg0.N = 128 := N_0
  have hi0 : (i 0).val < 128 := (i 0).isLt
  have hi1 : (i 1).val < 128 := (i 1).isLt
  refine ⟨⟨8 * ((i 0).val / 8) + 7, by omega⟩, (flush0_4 _).mpr (by dsimp only; omega), ?_⟩
  rw [mem_blk4]
  obtain ⟨e0, e1⟩ := idx_facts4 ⟨8 * ((i 0).val / 8) + 7, by omega⟩
  dsimp only at e0
  intro a
  match a with
  | ⟨0, _⟩ =>
    show win0_4.index ⟨8 * ((i 0).val / 8) + 7, _⟩ (0 : Fin 2) * 8 ≤ (i 0).val ∧ (i 0).val < win0_4.index ⟨8 * ((i 0).val / 8) + 7, _⟩ (0 : Fin 2) * 8 + 8
    omega
  | ⟨1, _⟩ =>
    show win0_4.index ⟨8 * ((i 0).val / 8) + 7, _⟩ (1 : Fin 2) * 128 ≤ (i 1).val ∧ (i 1).val < win0_4.index ⟨8 * ((i 0).val / 8) + 7, _⟩ (1 : Fin 2) * 128 + 128
    omega

/-- THE RESULT ARRAY of output window 4 after the run: `G`, when at every last step the block's buffer holds `G`'s
    entries of that block (the first component of the four contents). -/
theorem final4_of (c : Dev nD) (G : Vec F S128x128 .f32)
    (hG : ∀ (t : Fin cfg0.N), t.val % 8 = 7 → ∀ (a : Fin 8) (b : Fin 128),
      (outsAt m c t.val t.isLt).1 (ix2 a b) = G (ix2 (⟨8 * (t.val / 8) + a.val, row_lt t a⟩ : Fin 128) b)) :
    (dats m 0 c).arrAt 4 cfg0.N = G :=
  (dats m 0 c).arrAt_eq_of_cover 4 (G : Buf (Elt F) ((c : Thread nD τ).loc main_v4_0)) (fun t hf => flushed4_eq m c G hG t hf) cover4

/-- Output window 5's block index at point `t` is `(t / 8, 0)`. -/
theorem idx_facts5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- What a last step `t` writes back of output window 5 is block `t / 8` of `G`, when the block's buffer holds `G`'s
    entries there. -/
theorem flushed5_eq (c : Dev nD) (G : Vec F S128x128 .f32)
    (hG : ∀ (t : Fin cfg0.N), t.val % 8 = 7 → ∀ (a : Fin 8) (b : Fin 128),
      (outsAt m c t.val t.isLt).2.1 (ix2 a b) = G (ix2 (⟨8 * (t.val / 8) + a.val, row_lt t a⟩ : Fin 128) b))
    (t : Fin cfg0.N) (hf : (cfg0.win 5).flush t = true) :
    (dats m 0 c).flushed 5 t = ((cfg0.win 5).blk t).view.read (Elt F) (G : Buf (Elt F) ((c : Thread nD τ).loc main_v4_1)) := by
  show (cfg0.win 5).cut (grid0.coords t) ((dats m 0 c).after 5 t) = _
  rw [after5]
  funext j
  have ht := (flush0_5 t).mp hf
  obtain ⟨e0, e1⟩ := idx_facts5 t
  have hj0 : (j 0).val < 8 := (j 0).isLt
  have hj1 : (j 1).val < 128 := (j 1).isLt
  have h1 := hG t ht ⟨(j 0).val, hj0⟩ ⟨(j 1).val, hj1⟩
  show (outsAt m c t.val t.isLt).2.1 ((cfg0.win 5).xinj (grid0.coords t) j) = G (((cfg0.win 5).blk t).view.emb j)
  have hx : (cfg0.win 5).xinj (grid0.coords t) j = ix2 (⟨(j 0).val, hj0⟩ : Fin 8) (⟨(j 1).val, hj1⟩ : Fin 128) := by
    funext a
    match a with
    | ⟨0, _⟩ => rfl
    | ⟨1, _⟩ => rfl
  have hy : ((cfg0.win 5).blk t).view.emb j
      = ix2 (⟨8 * (t.val / 8) + (j 0).val, row_lt t ⟨(j 0).val, hj0⟩⟩ : Fin 128) (⟨(j 1).val, hj1⟩ : Fin 128) := by
    funext a
    apply Fin.ext
    match a with
    | ⟨0, _⟩ => show win0_5.index t (0 : Fin 2) * 8 + 1 * (j 0).val = 8 * (t.val / 8) + (j 0).val; omega
    | ⟨1, _⟩ => show win0_5.index t (1 : Fin 2) * 128 + 1 * (j 1).val = (j 1).val; omega
  rw [hx, hy]
  exact h1

/-- An index of the array is in point `t`'s block of output window 5 iff each coordinate is in the block's range. -/
theorem mem_blk5 (t : Fin cfg0.N) (i : S128x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v4_1).slice (win0_5.rect t)).set ↔ _
  rw [View.set_slice_whole, Rect.mem_set_unit]
  exact Iff.rfl

/-- Every index of the array is in the block some last step writes back: row `r` is in the block of point
    `8 * (r / 8) + 7`. -/
theorem cover5 (i : S128x128.Idx) :
    ∃ t : Fin cfg0.N, (cfg0.win 5).flush t = true ∧ i ∈ ((cfg0.win 5).blk t).view.set := by
  have hN : cfg0.N = 128 := N_0
  have hi0 : (i 0).val < 128 := (i 0).isLt
  have hi1 : (i 1).val < 128 := (i 1).isLt
  refine ⟨⟨8 * ((i 0).val / 8) + 7, by omega⟩, (flush0_5 _).mpr (by dsimp only; omega), ?_⟩
  rw [mem_blk5]
  obtain ⟨e0, e1⟩ := idx_facts5 ⟨8 * ((i 0).val / 8) + 7, by omega⟩
  dsimp only at e0
  intro a
  match a with
  | ⟨0, _⟩ =>
    show win0_5.index ⟨8 * ((i 0).val / 8) + 7, _⟩ (0 : Fin 2) * 8 ≤ (i 0).val ∧ (i 0).val < win0_5.index ⟨8 * ((i 0).val / 8) + 7, _⟩ (0 : Fin 2) * 8 + 8
    omega
  | ⟨1, _⟩ =>
    show win0_5.index ⟨8 * ((i 0).val / 8) + 7, _⟩ (1 : Fin 2) * 128 ≤ (i 1).val ∧ (i 1).val < win0_5.index ⟨8 * ((i 0).val / 8) + 7, _⟩ (1 : Fin 2) * 128 + 128
    omega

/-- THE RESULT ARRAY of output window 5 after the run: `G`, when at every last step the block's buffer holds `G`'s
    entries of that block (the second component of the four contents). -/
theorem final5_of (c : Dev nD) (G : Vec F S128x128 .f32)
    (hG : ∀ (t : Fin cfg0.N), t.val % 8 = 7 → ∀ (a : Fin 8) (b : Fin 128),
      (outsAt m c t.val t.isLt).2.1 (ix2 a b) = G (ix2 (⟨8 * (t.val / 8) + a.val, row_lt t a⟩ : Fin 128) b)) :
    (dats m 0 c).arrAt 5 cfg0.N = G :=
  (dats m 0 c).arrAt_eq_of_cover 5 (G : Buf (Elt F) ((c : Thread nD τ).loc main_v4_1)) (fun t hf => flushed5_eq m c G hG t hf) cover5

end Cert.KernelIdeal.Body

end
-- ==== Proof.KIClosedOut.lean ====
/-
  THE TWO RESULT ARRAYS IN CLOSED FORM, over the extended reals. Each [128, 128] result array is written back in 16
  blocks of [8, 128], block `a` by the last step of row tile `a`, whose buffer then holds at entry (0, 0) the hinge
  (the count) summed over the tile's 512 rows, the 1024 columns of a step and the 8 steps, and zero elsewhere. So the
  array holds that sum at row `8 * a` of column 0 and zero everywhere else.
-/
import proofs.«138254_j609885356367_2_alg».proof.Proof.KIClosed
import proofs.«138254_j609885356367_2_alg».proof.Proof.KIFinal
import proofs.«138254_j609885356367_2_alg».proof.Proof.Spec
import proofs.«138254_j609885356367_2_alg».proof.Proof.LibTileSums

set_option maxRecDepth 16384

noncomputable section

open scoped BigOperators

namespace Cert.PairLoss.KClosed

open Idealize.ShloMosaic Idealize.ShloMosaic.ValueIdx Idealize.ShloMosaic.TcCoe Idealize.SL.Sem
open Cert.KernelIdeal Cert.PairLoss

variable (m : (ℓ : Loc nD τ sig) → Buf (Elt Ideal) ℓ)

/-- Row `512 * (r / 8) + p`, for a row `r` of a [128, 128] array and a row `p` of a tile, is a position below 8192. -/
theorem arow_lt (i : S128x128.Idx) (p : Fin 512) : 512 * ((i 0).val / 8) + p.val < 8192 := by
  have h1 : (i 0).val < 128 := (i 0).isLt
  have h2 := p.isLt
  omega

/-- The hinge result array after the run: at row `8 * a` of column 0 the hinge summed over row tile `a` (its 512 rows, the
    1024 columns of a step, the 8 steps), zero everywhere else. -/
theorem arr4 (c : Dev nD) :
    (Body.dats m 0 c).arrAt 4 cfg0.N
      = (fun i : S128x128.Idx => if (i 0).val % 8 = 0 ∧ (i 1).val = 0 then
          ∑ p : Fin 512, ∑ q : Fin 1024, ∑ j : Fin 8,
            hingeAt (P m c) (T m c) ⟨512 * ((i 0).val / 8) + p.val, arow_lt i p⟩
              ⟨1024 * j.val + q.val, Sums.block_lt (n := 8) (b := 1024) j q⟩
        else 0) := by
  refine Body.final4_of m c _ ?_
  intro t ht a b
  rw [out4_closed m c t.val t.isLt (ix2 a b)]
  show _ = if (8 * (t.val / 8) + a.val) % 8 = 0 ∧ b.val = 0 then
      ∑ p : Fin 512, ∑ q : Fin 1024, ∑ j : Fin 8,
        hingeAt (P m c) (T m c) ⟨512 * ((8 * (t.val / 8) + a.val) / 8) + p.val, _⟩
          ⟨1024 * j.val + q.val, Sums.block_lt (n := 8) (b := 1024) j q⟩
    else 0
  have ha8 : a.val < 8 := a.isLt
  by_cases hab : a.val = 0 ∧ b.val = 0
  · obtain ⟨ha, hb⟩ := hab
    have hy : ix2 a b = ix2 (0 : Fin 8) (0 : Fin 128) := by
      rw [show a = 0 from Fin.ext ha, show b = 0 from Fin.ext hb]
    rw [if_pos ⟨ht, hy⟩, if_pos ⟨by omega, hb⟩]
    refine Finset.sum_congr rfl fun p _ => Finset.sum_congr rfl fun q _ => Finset.sum_congr rfl fun j _ => ?_
    congr 1
    apply Fin.ext
    show 512 * (t.val / 8) + p.val = 512 * ((8 * (t.val / 8) + a.val) / 8) + p.val
    omega
  · have hy : ¬ix2 a b = ix2 (0 : Fin 8) (0 : Fin 128) := fun h => hab
      ⟨congrArg Fin.val (show a = 0 from congrFun h 0), congrArg Fin.val (show b = 0 from congrFun h 1)⟩
    rw [if_neg (fun h => hy h.2), if_neg (fun h => hab ⟨by omega, h.2⟩)]

/-- Read at (r, cc), that array is the sparse array of per-tile sums in the form the host's last operations are read at. -/
theorem arr4_tiles (c : Dev nD) : ∀ r cc : Fin 128,
    (fun i : S128x128.Idx => if (i 0).val % 8 = 0 ∧ (i 1).val = 0 then
          ∑ p : Fin 512, ∑ q : Fin 1024, ∑ j : Fin 8,
            hingeAt (P m c) (T m c) ⟨512 * ((i 0).val / 8) + p.val, arow_lt i p⟩
              ⟨1024 * j.val + q.val, Sums.block_lt (n := 8) (b := 1024) j q⟩
        else (0 : EReal)) (ix2 r cc)
      = if r.val % 8 = 0 ∧ cc.val = 0 then
          ∑ p : Fin 512, ∑ q : Fin 1024, ∑ j : Fin 8,
            hingeAt (fun k => (m ((c : Thread nD τ).loc main_arg0) : S8192.Idx → EReal) (ix1 k)) (fun k => (m ((c : Thread nD τ).loc main_arg1) : S8192.Idx → EReal) (ix1 k))
              ⟨512 * (r.val / 8) + p.val, by have := r.isLt; have := p.isLt; omega⟩
              ⟨1024 * j.val + q.val, Sums.block_lt (n := 8) (b := 1024) j q⟩
        else 0 :=
  fun _ _ => rfl

/-- The same, stated of the result array itself. -/
theorem arr4_apply (c : Dev nD) : ∀ r cc : Fin 128,
    ((Body.dats m 0 c).arrAt 4 cfg0.N : S128x128.Idx → EReal) (ix2 r cc)
      = if r.val % 8 = 0 ∧ cc.val = 0 then
          ∑ p : Fin 512, ∑ q : Fin 1024, ∑ j : Fin 8,
            hingeAt (fun k => (m ((c : Thread nD τ).loc main_arg0) : S8192.Idx → EReal) (ix1 k)) (fun k => (m ((c : Thread nD τ).loc main_arg1) : S8192.Idx → EReal) (ix1 k))
              ⟨512 * (r.val / 8) + p.val, by have := r.isLt; have := p.isLt; omega⟩
              ⟨1024 * j.val + q.val, Sums.block_lt (n := 8) (b := 1024) j q⟩
        else 0 := by
  intro r cc
  rw [arr4 m c]

/-- The count result array after the run: at row `8 * a` of column 0 the count summed over row tile `a` (its 512 rows, the
    1024 columns of a step, the 8 steps), zero everywhere else. -/
theorem arr5 (c : Dev nD) :
    (Body.dats m 0 c).arrAt 5 cfg0.N
      = (fun i : S128x128.Idx => if (i 0).val % 8 = 0 ∧ (i 1).val = 0 then
          ∑ p : Fin 512, ∑ q : Fin 1024, ∑ j : Fin 8,
            countAt (T m c) ⟨512 * ((i 0).val / 8) + p.val, arow_lt i p⟩
              ⟨1024 * j.val + q.val, Sums.block_lt (n := 8) (b := 1024) j q⟩
        else 0) := by
  refine Body.final5_of m c _ ?_
  intro t ht a b
  rw [out5_closed m c t.val t.isLt (ix2 a b)]
  show _ = if (8 * (t.val / 8) + a.val) % 8 = 0 ∧ b.val = 0 then
      ∑ p : Fin 512, ∑ q : Fin 1024, ∑ j : Fin 8,
        countAt (T m c) ⟨512 * ((8 * (t.val / 8) + a.val) / 8) + p.val, _⟩
          ⟨1024 * j.val + q.val, Sums.block_lt (n := 8) (b := 1024) j q⟩
    else 0
  have ha8 : a.val < 8 := a.isLt
  by_cases hab : a.val = 0 ∧ b.val = 0
  · obtain ⟨ha, hb⟩ := hab
    have hy : ix2 a b = ix2 (0 : Fin 8) (0 : Fin 128) := by
      rw [show a = 0 from Fin.ext ha, show b = 0 from Fin.ext hb]
    rw [if_pos ⟨ht, hy⟩, if_pos ⟨by omega, hb⟩]
    refine Finset.sum_congr rfl fun p _ => Finset.sum_congr rfl fun q _ => Finset.sum_congr rfl fun j _ => ?_
    congr 1
    apply Fin.ext
    show 512 * (t.val / 8) + p.val = 512 * ((8 * (t.val / 8) + a.val) / 8) + p.val
    omega
  · have hy : ¬ix2 a b = ix2 (0 : Fin 8) (0 : Fin 128) := fun h => hab
      ⟨congrArg Fin.val (show a = 0 from congrFun h 0), congrArg Fin.val (show b = 0 from congrFun h 1)⟩
    rw [if_neg (fun h => hy h.2), if_neg (fun h => hab ⟨by omega, h.2⟩)]

/-- Read at (r, cc), that array is the sparse array of per-tile sums in the form the host's last operations are read at. -/
theorem arr5_tiles (c : Dev nD) : ∀ r cc : Fin 128,
    (fun i : S128x128.Idx => if (i 0).val % 8 = 0 ∧ (i 1).val = 0 then
          ∑ p : Fin 512, ∑ q : Fin 1024, ∑ j : Fin 8,
            countAt (T m c) ⟨512 * ((i 0).val / 8) + p.val, arow_lt i p⟩
              ⟨1024 * j.val + q.val, Sums.block_lt (n := 8) (b := 1024) j q⟩
        else (0 : EReal)) (ix2 r cc)
      = if r.val % 8 = 0 ∧ cc.val = 0 then
          ∑ p : Fin 512, ∑ q : Fin 1024, ∑ j : Fin 8,
            countAt (fun k => (m ((c : Thread nD τ).loc main_arg1) : S8192.Idx → EReal) (ix1 k))
              ⟨512 * (r.val / 8) + p.val, by have := r.isLt; have := p.isLt; omega⟩
              ⟨1024 * j.val + q.val, Sums.block_lt (n := 8) (b := 1024) j q⟩
        else 0 :=
  fun _ _ => rfl

/-- The same, stated of the result array itself. -/
theorem arr5_apply (c : Dev nD) : ∀ r cc : Fin 128,
    ((Body.dats m 0 c).arrAt 5 cfg0.N : S128x128.Idx → EReal) (ix2 r cc)
      = if r.val % 8 = 0 ∧ cc.val = 0 then
          ∑ p : Fin 512, ∑ q : Fin 1024, ∑ j : Fin 8,
            countAt (fun k => (m ((c : Thread nD τ).loc main_arg1) : S8192.Idx → EReal) (ix1 k))
              ⟨512 * (r.val / 8) + p.val, by have := r.isLt; have := p.isLt; omega⟩
              ⟨1024 * j.val + q.val, Sums.block_lt (n := 8) (b := 1024) j q⟩
        else 0 := by
  intro r cc
  rw [arr5 m c]

end Cert.PairLoss.KClosed

end
-- ==== Proof.KITail.lean ====
/-
  The kernel program's host operations after its one region, composed into one function of the two arguments and the
  region's two output arrays; and that function, at the extended reals, on output arrays that carry the per-tile
  partial sums of the hinge and of the count, is the loss of the specification.
-/
import proofs.«138254_j609885356367_2_alg».proof.Proof.Gen.KernelIdeal.Frame
import proofs.«138254_j609885356367_2_alg».proof.Proof.Spec
import proofs.«138254_j609885356367_2_alg».proof.Proof.SumsPairs
import Idealize.ShloMosaic.Lib.StableHlo.Run

noncomputable section

open scoped BigOperators

namespace Cert.PairLoss.KTail

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo (nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne' after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-- The host operations after the region, composed: the float sums of the two arrays of partial sums from the zero
    word, the second floored at the word one, their quotient; the mean squared difference of the two arguments; and
    the two combined with the two weight words. -/
def kernelTail (P T : (⟨S8192, .f32⟩ : BufTy).Contents (Elt F)) (X4 X5 : (⟨S128x128, .f32⟩ : BufTy).Contents (Elt F)) :
    (⟨S_, .f32⟩ : BufTy).Contents (Elt F) :=
  addf
    (mulf (constant (F := F) S_ .f32 0x3ECCCCCD#32)
      (Host.divf
        (Host.reduceAdd (F := F) (mulf (subf P T) (subf P T)) (constant (F := F) S_ .f32 0x00000000#32) reducesTo_S8192_S_d0 h_S_)
        (constant (F := F) S_ .f32 0x46000000#32)))
    (mulf (constant (F := F) S_ .f32 0x3F19999A#32)
      (Host.divf
        (Host.reduceAdd (F := F) X4 (constant (F := F) S_ .f32 0x00000000#32) reducesTo_S128x128_S_d0_1 h_S_)
        (maximumf
          (Host.reduceAdd (F := F) X5 (constant (F := F) S_ .f32 0x00000000#32) reducesTo_S128x128_S_d0_1 h_S_)
          (constant (F := F) S_ .f32 0x3F800000#32))))

set_option maxHeartbeats 1000000 in
/-- What the host operations after the region leave in the result buffer is `kernelTail` of the two arguments as
    launched and of the two output arrays as the region leaves them, whatever the proof data. -/
theorem tail_eq (m : (ℓ : Loc nD τ sig) → Buf (Elt F) ℓ)
    (dats : (p : Fin 1) → (c : Dev nD) → Pipeline.Dat τ (Elt F) Unit ℕ (UR sig nD τ) ℕ (cfgs p) c) (c : Dev nD) :
    Pipeline.afterTail₀ cfgs dats 0 (Gen.V0 m) [hostOps1] c main_v15
      = kernelTail (m ((c : Thread nD τ).loc main_arg0)) (m ((c : Thread nD τ).loc main_arg1))
          ((dats 0 c).arrAt 4 cfg0.N) ((dats 0 c).arrAt 5 cfg0.N) := by
  have e4 : Pipeline.withArrays spec0 c (V0 m c) (fun w => (dats 0 c).arrAt w (cfgs 0).N) (Proc.devRef .tc main_v4_0)
      = (dats 0 c).arrAt 4 cfg0.N :=
    Pipeline.withArrays_arr spec0 launch0.win.arr_inj c (V0 m c) _ 4
  have e5 : Pipeline.withArrays spec0 c (V0 m c) (fun w => (dats 0 c).arrAt w (cfgs 0).N) (Proc.devRef .tc main_v4_1)
      = (dats 0 c).arrAt 5 cfg0.N :=
    Pipeline.withArrays_arr spec0 launch0.win.arr_inj c (V0 m c) _ 5
  have e0 : Pipeline.withArrays spec0 c (V0 m c) (fun w => (dats 0 c).arrAt w (cfgs 0).N) (Proc.devRef .tc main_arg0)
      = m ((c : Thread nD τ).loc main_arg0) :=
    (Pipeline.withArrays_of_ne spec0 c (V0 m c) _ main_arg0
      (by exact (by decide : ∀ w, Pipeline.arrRef spec0 w ≠ main_arg0))).trans (V_main_arg0 m c)
  have e1 : Pipeline.withArrays spec0 c (V0 m c) (fun w => (dats 0 c).arrAt w (cfgs 0).N) (Proc.devRef .tc main_arg1)
      = m ((c : Thread nD τ).loc main_arg1) :=
    (Pipeline.withArrays_of_ne spec0 c (V0 m c) _ main_arg1
      (by exact (by decide : ∀ w, Pipeline.arrRef spec0 w ≠ main_arg1))).trans (V_main_arg1 m c)
  unfold Pipeline.afterTail₀
  simp only [Gen.hostOps1, List.flatten_cons, List.flatten_nil, List.append_nil, List.cons_append, List.nil_append]
  after_results_simp
  rw [e0, e1, e4, e5]
  rfl

/-- At the extended reals: when the two output arrays carry, at row 8·a of column 0, the hinge and the count summed
    over row tile a (all eight column tiles) and zero elsewhere, the host operations' result is the loss. -/
theorem kernelTail_eq_loss (P T : (⟨S8192, .f32⟩ : BufTy).Contents (Elt Ideal))
    (X4 X5 : (⟨S128x128, .f32⟩ : BufTy).Contents (Elt Ideal))
    (h4 : ∀ r c : Fin 128, X4 (ix2 r c)
      = if r.val % 8 = 0 ∧ c.val = 0 then
          ∑ p : Fin 512, ∑ q : Fin 1024, ∑ j : Fin 8,
            Cert.PairLoss.hingeAt (fun k => P (ix1 k)) (fun k => T (ix1 k))
              ⟨512 * (r.val / 8) + p.val, by have := r.isLt; have := p.isLt; omega⟩
              ⟨1024 * j.val + q.val, Cert.PairLoss.Sums.block_lt (n := 8) (b := 1024) j q⟩
        else 0)
    (h5 : ∀ r c : Fin 128, X5 (ix2 r c)
      = if r.val % 8 = 0 ∧ c.val = 0 then
          ∑ p : Fin 512, ∑ q : Fin 1024, ∑ j : Fin 8,
            Cert.PairLoss.countAt (fun k => T (ix1 k))
              ⟨512 * (r.val / 8) + p.val, by have := r.isLt; have := p.isLt; omega⟩
              ⟨1024 * j.val + q.val, Cert.PairLoss.Sums.block_lt (n := 8) (b := 1024) j q⟩
        else 0) :
    kernelTail (F := Ideal) P T X4 X5
      = fun _ => Cert.PairLoss.loss (fun k => P (ix1 k)) (fun k => T (ix1 k)) := by
  unfold kernelTail
  rw [Cert.PairLoss.Sums.hostSum_tiles (Cert.PairLoss.hingeAt (fun k => P (ix1 k)) (fun k => T (ix1 k))) X4 h4,
    Cert.PairLoss.Sums.hostSum_tiles (Cert.PairLoss.countAt (fun k => T (ix1 k))) X5 h5,
    Cert.PairLoss.Sums.hostSum_8192]
  rfl

end Cert.PairLoss.KTail

end
-- ==== Proof.KIValue.lean ====
/-
  THE KERNEL PROGRAM'S RESULT, at the extended reals. The frame run ends with the two result arrays of the pairwise
  call holding, block by block, what the last step of each row tile left: array entry (8a, 0) the row tile's total
  over its 512 rows and all 8192 columns (8 steps of 1024), every other entry zero. The host operations after the call
  sum each array, so the two totals are the hinge sum and the pair count over ALL ordered pairs — a sum taken tile by
  tile is the same sum —, and the rest of the host chain is the specification's own formula: the result is the loss of
  the predictions and the targets.
-/
import proofs.«138254_j609885356367_2_alg».proof.Proof.KIBody
import proofs.«138254_j609885356367_2_alg».proof.Proof.KIClosedOut
import proofs.«138254_j609885356367_2_alg».proof.Proof.KITail
import proofs.«138254_j609885356367_2_alg».proof.Proof.Spec

noncomputable section

namespace Cert.PairLoss.KValue

open Idealize.ShloMosaic Idealize.ShloMosaic.TcCoe Idealize.SL.Sem Idealize.ShloMosaic.ValueIdx
open Cert.KernelIdeal Cert.KernelIdeal.Gen Cert.PairLoss

variable (m : (ℓ : Loc nD τ sig) → Buf (Elt Ideal) ℓ) (ρ : Dev nD → PrngReg)

/-- What the host operations after the call compute from the two result arrays is the loss. -/
theorem result_eq (c : Dev nD) :
    Pipeline.afterTail₀ cfgs (Body.dats m) 0 (V0 m) [hostOps1] c main_v15
      = fun _ => loss (KClosed.P m c) (KClosed.T m c) := by
  rw [KTail.tail_eq m (Body.dats m) c]
  exact KTail.kernelTail_eq_loss _ _ _ _ (KClosed.arr4_apply m c) (KClosed.arr5_apply m c)

/-- The run, read: the result at the loss, the two argument arrays unchanged. -/
theorem run : θ_run defs (onTc (τ := τ) (main (F := Ideal))) ⟨m, fun _ => 0, ρ⟩ (fun r => ∀ c : Dev nD,
      r.2.mem ((c.tc : Thread nD τ).loc main_v15) = (fun _ => loss (KClosed.P m c) (KClosed.T m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (Body.dats m) c),
      ((h c).2 main_arg1 (Pipeline.mem_restRefs_of main_arg1 (by decide) (by decide))).trans (W_main_arg1 m (Body.dats m) c)⟩)
    (Body.run_main m ρ)

end Cert.PairLoss.KValue

end
-- ==== Proof.RefMask.lean ====
/-
  The reference's comparison mask, read at a pair of coordinates: at (i, j) it is the one-bit word of "target j is
  strictly below target i". Both the count and the hinge sum read it.
-/
import proofs.«138254_j609885356367_2_alg».proof.Proof.Gen.ReferenceIdeal.Read
import Idealize.ShloMosaic.Lib.ValueIdx

noncomputable section

namespace Cert.PairLoss.Ref

open Cert.ReferenceIdeal Cert.ReferenceIdeal.Read Idealize.ShloMosaic Idealize.ShloMosaic.ValueIdx

/-- The mask at (i, j): the targets are broadcast along rows (coordinate i) and along columns (coordinate j) and
    compared, row value strictly above column value. -/
theorem mask_apply (T : (⟨S8192, .f32⟩ : BufTy).Contents (Elt Ideal)) (i j : Fin 8192) :
    val_main_v8 (F := Ideal) T (ix2 i j) = BitVec.ofBool (decide (T (ix1 j) < T (ix1 i))) := by
  rw [val_main_v8_apply, val_main_v6_apply, val_main_v4_apply, val_main_v7_apply, val_main_v5_apply]
  have e1 : idx_main_v4 (idx_main_v6 (ix2 i j)) = ix1 i := by
    funext a; match a with | ⟨0, _⟩ => rfl
  have e2 : idx_main_v5 (idx_main_v7 (ix2 i j)) = ix1 j := by
    funext a; match a with | ⟨0, _⟩ => rfl
  rw [e1, e2]
  rfl

/-- The mask at (i, j) is the word one exactly when target j is strictly below target i. -/
theorem mask_eq_one_iff (T : (⟨S8192, .f32⟩ : BufTy).Contents (Elt Ideal)) (i j : Fin 8192) :
    val_main_v8 (F := Ideal) T (ix2 i j) = 1#1 ↔ T (ix1 j) < T (ix1 i) := by
  rw [mask_apply]
  by_cases h : T (ix1 j) < T (ix1 i)
  · simp [h]
  · simp [h]

end Cert.PairLoss.Ref

end
-- ==== Proof.LibCountWords.lean ====
/-
  COUNTING WITH 32-BIT WORDS. A sum, in wrap-around 32-bit arithmetic, of one-bit words widened to 32 bits is the number
  of the ones among them, and as long as there are fewer than 2^31 summands nothing wraps: the word read as a signed
  integer is that number. Floored at the word one, read signed and cast to the extended reals, it is the larger of one
  and the extended-real sum of the 0/1 indicators. Nothing here mentions a program.
-/
import Idealize.ShloMosaic.Lib.IndicatorCount
import Idealize.ShloMosaic.PureOps.Ideal

open scoped BigOperators

namespace Cert.CountWords

open Idealize.ShloMosaic

/-- A natural number below 2^31, as a 32-bit word read signed, is itself. -/
theorem toInt_ofNat_of_lt {n : ℕ} (hn : n < 2 ^ 31) : (BitVec.ofNat 32 n).toInt = (n : ℤ) := by
  rw [BitVec.toInt_eq_toNat_of_lt (by rw [BitVec.toNat_ofNat]; omega), BitVec.toNat_ofNat]
  congr 1
  omega

/-- The signed maximum of a count below 2^31 and the word one, read signed, is the larger of the count and one. -/
theorem toInt_maxsi_ofNat_one {n : ℕ} (hn : n < 2 ^ 31) :
    (IntOp.maxsi (BitVec.ofNat 32 n) 1#32).toInt = ((max n 1 : ℕ) : ℤ) := by
  have h1 : (1#32 : BitVec 32).toInt = 1 := by decide
  have hn' := toInt_ofNat_of_lt hn
  unfold IntOp.maxsi
  by_cases h : (1#32 : BitVec 32).slt (BitVec.ofNat 32 n) = true
  · rw [if_pos h, hn']
    rw [BitVec.slt_iff_toInt_lt, h1, hn'] at h
    congr 1
    omega
  · rw [if_neg h, h1]
    rw [BitVec.slt_iff_toInt_lt, h1, hn'] at h
    have : max n 1 = 1 := by omega
    rw [this]; rfl

/-- The number of elements of a finite type with a property, cast through the reals to the extended reals, is the
    extended-real sum of the property's 0/1 indicator. -/
theorem coe_card_filter_eq_sum {ι : Type} [Fintype ι] (q : ι → Prop) [DecidablePred q] :
    ((((Finset.univ.filter q).card : ℕ) : ℝ) : EReal) = ∑ k : ι, (if q k then (1 : EReal) else 0) := by
  rw [Finset.card_filter, Nat.cast_sum]
  have : ∀ S : Finset ι, (((∑ k ∈ S, ((if q k then 1 else 0 : ℕ) : ℝ)) : ℝ) : EReal)
      = ∑ k ∈ S, (if q k then (1 : EReal) else 0) := by
    classical
    intro S
    induction S using Finset.induction_on with
    | empty => simp
    | insert a S ha ih =>
      rw [Finset.sum_insert ha, Finset.sum_insert ha, EReal.coe_add, ih]
      congr 1
      by_cases h : q a
      · simp [h]
      · simp [h]
  exact this Finset.univ

/-- THE COUNT. Over a finite type with fewer than 2^31 elements: add up, in 32-bit arithmetic from the zero word, the
    one-bit words `p k` widened to 32 bits; take the signed maximum with the word one; read the result signed and cast
    it to the extended reals. That is the larger of one and the sum of the indicators of `p k = 1`. -/
theorem coe_toInt_maxsi_fold_addi {ι : Type} [Fintype ι] (p : ι → BitVec 1) (hcard : Fintype.card ι < 2 ^ 31) :
    ((((IntOp.maxsi (Finset.univ.fold IntOp.addi (0#32) (fun k => (p k).setWidth 32)) 1#32).toInt : ℤ) : ℝ) : EReal)
      = max (∑ k : ι, (if p k = 1#1 then (1 : EReal) else 0)) 1 := by
  rw [IndicatorCount.fold_addi_setWidth_eq_card]
  have hn : (Finset.univ.filter fun k => p k = 1#1).card < 2 ^ 31 :=
    lt_of_le_of_lt (Finset.card_filter_le _ _) (by rw [Finset.card_univ]; exact hcard)
  rw [toInt_maxsi_ofNat_one hn, ← coe_card_filter_eq_sum]
  rw [Int.cast_natCast, Nat.cast_max, EReal.coe_strictMono.monotone.map_max, Nat.cast_one, EReal.coe_one]

/-- The float word 0x3F800000 is the number one. -/
theorem ofBits_one_f32 : Ideal.ofBits .f32 0x3F800000#32 = 1 := by
  simp [Ideal.ofBits, Ideal.ieee, -EReal.coe_mul]; norm_num

end Cert.CountWords
-- ==== Proof.RefCount.lean ====
/-
  The reference's denominator. The reference adds the comparison mask up as 32-bit words, takes the signed maximum with
  the word one and converts to float; read at the extended reals that is the larger of one and the number of strictly
  ordered pairs of targets. There are 2^26 pairs, fewer than 2^31, so the 32-bit sum never wraps.
-/
import proofs.«138254_j609885356367_2_alg».proof.Proof.RefMask
import proofs.«138254_j609885356367_2_alg».proof.Proof.LibCountWords
import proofs.«138254_j609885356367_2_alg».proof.Proof.Spec
import Idealize.ShloMosaic.PureOps.Reduce

noncomputable section

open scoped BigOperators

namespace Cert.PairLoss.Ref

open Cert.ReferenceIdeal Cert.ReferenceIdeal.Read Idealize.ShloMosaic Idealize.ShloMosaic.ValueIdx

/-- There are 8192 · 8192 = 2^26 pairs, fewer than 2^31. -/
theorem card_pairs_lt : Fintype.card S8192x8192.Idx < 2 ^ 31 := by
  rw [Fintype.card_congr (idxEquiv2 (n0 := 8192) (n1 := 8192)), Fintype.card_prod, Fintype.card_fin]
  norm_num

/-- The integer reduction over both axes is the 32-bit sum, from the zero word, of the widened mask over every pair. -/
theorem sum_words_eq (T : (⟨S8192, .f32⟩ : BufTy).Contents (Elt Ideal)) (i : S_.Idx) :
    val_main_v20 (F := Ideal) T i
      = Finset.univ.fold IntOp.addi (0#32) (fun k : S8192x8192.Idx => (val_main_v8 (F := Ideal) T k).setWidth 32) := by
  unfold val_main_v20
  refine (Host.reduce_eq_fold IntOp.addi _ _ _ _ i).trans ?_
  rw [Finset.filter_true_of_mem (fun _ _ => (eq_ix0 _).trans (eq_ix0 _).symm)]
  rfl

/-- The denominator: the larger of the number of strictly ordered pairs and one. -/
theorem count_apply (T : (⟨S8192, .f32⟩ : BufTy).Contents (Elt Ideal)) (i : S_.Idx) :
    val_main_v23 (F := Ideal) T i
      = max (Cert.PairLoss.zero + Cert.PairLoss.countSum (fun k => T (ix1 k))) Cert.PairLoss.one := by
  rw [val_main_v23_apply, val_main_v22_apply, val_main_c_5_apply, sum_words_eq]
  refine (CountWords.coe_toInt_maxsi_fold_addi (fun k : S8192x8192.Idx => val_main_v8 (F := Ideal) T k)
    card_pairs_lt).trans ?_
  rw [sum_idx2, show Cert.PairLoss.zero = 0 from Ideal.ofBits_zero_f32, zero_add,
    show Cert.PairLoss.one = 1 from CountWords.ofBits_one_f32]
  unfold Cert.PairLoss.countSum Cert.PairLoss.countAt
  refine congrArg (fun s : EReal => max s 1) ?_
  exact Finset.sum_congr rfl fun a _ => Finset.sum_congr rfl fun b _ => if_congr (mask_eq_one_iff T a b) rfl rfl

end Cert.PairLoss.Ref

end
-- ==== Proof.RefHinge.lean ====
/-
  The reference's numerator of the ranking term: the float sum over both axes of the selected hinge is the zero word
  plus the hinge summed over all ordered pairs.
-/
import proofs.«138254_j609885356367_2_alg».proof.Proof.RefMask
import proofs.«138254_j609885356367_2_alg».proof.Proof.Spec

noncomputable section

open scoped BigOperators

namespace Cert.PairLoss.Ref

open Cert.ReferenceIdeal Cert.ReferenceIdeal.Read Idealize.ShloMosaic Idealize.ShloMosaic.ValueIdx

/-- The selected hinge at (i, j): where target j is strictly below target i, the positive part of
    prediction j − prediction i + margin; elsewhere the zero word. -/
theorem hinge_elem (P T : (⟨S8192, .f32⟩ : BufTy).Contents (Elt Ideal)) (i j : Fin 8192) :
    val_main_v18 (F := Ideal) P T (ix2 i j)
      = Cert.PairLoss.hingeAt (fun k => P (ix1 k)) (fun k => T (ix1 k)) i j := by
  rw [val_main_v18_apply, val_main_v17_apply, val_main_v15_apply, val_main_v13_apply, val_main_v11_apply,
    val_main_v9_apply, val_main_v12_apply, val_main_v10_apply, val_main_v14_apply, val_main_cst_1_apply,
    val_main_v16_apply, val_main_cst_2_apply, val_main_call0_v1_apply, val_main_call0_v0_apply, val_main_cst_3_apply]
  have e1 : idx_main_v9 (idx_main_v11 (ix2 i j)) = ix1 j := by
    funext a; match a with | ⟨0, _⟩ => rfl
  have e2 : idx_main_v10 (idx_main_v12 (ix2 i j)) = ix1 i := by
    funext a; match a with | ⟨0, _⟩ => rfl
  rw [e1, e2]
  unfold Cert.PairLoss.hingeAt
  by_cases h : T (ix1 j) < T (ix1 i)
  · rw [(mask_eq_one_iff T i j).2 h, if_pos h]
    rfl
  · rw [eq_zero_of_ne_one (mt (mask_eq_one_iff T i j).1 h), if_neg h]
    rfl

/-- The numerator: the zero word plus the hinge over all ordered pairs. -/
theorem hinge_apply (P T : (⟨S8192, .f32⟩ : BufTy).Contents (Elt Ideal)) (i : S_.Idx) :
    val_main_v21 (F := Ideal) P T i
      = Cert.PairLoss.zero + Cert.PairLoss.hingeSum (fun k => P (ix1 k)) (fun k => T (ix1 k)) := by
  rw [val_main_v21_apply, val_main_cst_4_apply, sum_idx2]
  simp only [hinge_elem]
  rfl

end Cert.PairLoss.Ref

end
-- ==== Proof.RefLoss.lean ====
/-
  The reference program's result, read at the extended reals, is the loss of the specification.
-/
import proofs.«138254_j609885356367_2_alg».proof.Proof.RefCount
import proofs.«138254_j609885356367_2_alg».proof.Proof.RefHinge
import proofs.«138254_j609885356367_2_alg».proof.Proof.Spec

noncomputable section

open scoped BigOperators

namespace Cert.PairLoss.Ref

open Cert.ReferenceIdeal Cert.ReferenceIdeal.Read Idealize.ShloMosaic Idealize.ShloMosaic.ValueIdx

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- The mean squared difference: the float sum from the zero word of the squared differences, over the word 8192. -/
theorem mse_apply (P T : (⟨S8192, .f32⟩ : BufTy).Contents (Elt Ideal)) (i : S_.Idx) :
    val_main_v3 (F := Ideal) P T i = Cert.PairLoss.mse (fun k => P (ix1 k)) (fun k => T (ix1 k)) := by
  rw [val_main_v3_apply, val_main_v2_apply, val_main_cst_apply, val_main_cst_0_apply, sum_idx1]
  rfl

/-- The ranking term: the hinge sum over the floored count. -/
theorem rank_apply (P T : (⟨S8192, .f32⟩ : BufTy).Contents (Elt Ideal)) (i : S_.Idx) :
    val_main_v24 (F := Ideal) P T i = Cert.PairLoss.rank (fun k => P (ix1 k)) (fun k => T (ix1 k)) := by
  rw [val_main_v24_apply, hinge_apply, count_apply]
  rfl

/-- THE REFERENCE'S RESULT is the specification's loss of the predictions (first argument) and targets (second). -/
theorem result_eq (P T : (⟨S8192, .f32⟩ : BufTy).Contents (Elt Ideal)) :
    val_main_v27 (F := Ideal) P T
      = fun _ => Cert.PairLoss.loss (fun k => P (ix1 k)) (fun k => T (ix1 k)) := by
  funext i
  rw [val_main_v27_apply, val_main_v25_apply, val_main_v26_apply, val_main_cst_6_apply, val_main_cst_7_apply,
    mse_apply, rank_apply]
  rfl

end Cert.PairLoss.Ref

end
-- ==== Proof.lean ====
/-
  The certificate. Both programs compute one function of the predictions `P` and the targets `T` on the extended
  reals (Proof/Spec.lean): a weighted sum of the mean squared difference and of the pairwise ranking hinge
      ∑ over ordered pairs (i, j) with Tⱼ < Tᵢ of max (Pⱼ − Pᵢ + margin) 0,   divided by the number of such pairs (at least 1).
  The reference forms the whole 8192 × 8192 table of pairs and sums it; it counts the pairs as 32-bit integers (2²⁶
  zero-or-one words cannot wrap) and converts the count. The kernel walks the table in 16 × 8 tiles of 512 × 1024:
  for each row tile it adds the 8 column tiles entry by entry into two accumulators, sums each accumulator once, and
  leaves the two totals in one entry of a block of otherwise zero results, which the host sums. Sums over the extended
  reals may be taken in any order and grouping, so the two hinge totals agree and the two counts agree (an integer
  count and a sum of ones are the same number); the mean-squared term and the final combination are the same host
  operations on both sides. No finiteness of the inputs is used.
  The three frames: the reference has no kernel (its generated run, result dropped); the kernel's body is run
  symbolically in its three control cases — first, middle and last step of a row tile — at any float instance, for
  the word-level program and for its idealization alike. The idealization rewrote nothing, so `preserves` is trivial.
-/
import proofs.«138254_j609885356367_2_alg».proof.Defs
import proofs.«138254_j609885356367_2_alg».proof.Proof.Gen.Kernel
import proofs.«138254_j609885356367_2_alg».proof.Proof.Gen.KernelIdeal
import proofs.«138254_j609885356367_2_alg».proof.Proof.Gen.ReferenceIdeal
import proofs.«138254_j609885356367_2_alg».proof.Proof.Gen.Pre_finite_inputs
import proofs.«138254_j609885356367_2_alg».proof.Proof.KBody
import proofs.«138254_j609885356367_2_alg».proof.Proof.KIBody
import proofs.«138254_j609885356367_2_alg».proof.Proof.KIValue
import proofs.«138254_j609885356367_2_alg».proof.Proof.RefLoss

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the (agreeing) argument arrays. -/
theorem algebraic : Cert.algebraic_KernelIdeal_ReferenceIdeal := by
  intro m ρ m' ρ' _ hagree
  refine ⟨fun c => fun _ => Cert.PairLoss.loss (Cert.PairLoss.KClosed.P m c) (Cert.PairLoss.KClosed.T m c),
    Cert.PairLoss.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.PairLoss.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
